-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x156000 : Shape := ⟨2, ![2, 156000]⟩
abbrev S156000 : Shape := ⟨1, ![156000]⟩
abbrev S512x512 : Shape := ⟨2, ![512, 512]⟩
abbrev S512 : Shape := ⟨1, ![512]⟩
abbrev S3x512x512 : Shape := ⟨3, ![3, 512, 512]⟩
abbrev S3x512 : Shape := ⟨2, ![3, 512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_

variable [Facts]

def fn_part1 {F : FTy → Type} [FloatOps F] (main_arg6 : FVec F S3x512 .f32) (main_arg7 : FVec F S3x512x512 .f32) (main_arg8 : FVec F S3x512 .f32) (main_v13 : IVec S_ 1) (main_v16 : IVec S3x512x512 1) : IVec S_ 1 :=
  let main_c_5 : IVec S_ 1 := constantI S_ 1 1#1
  let main_v17 : IVec S_ 1 := (fun x v => Host.reduce IntOp.andi x v reducesTo_S3x512x512_S_d0_1_2 h_S_) main_v16 main_c_5
  let main_v18 : IVec S_ 1 := andi main_v13 main_v17
  let main_v19 : FVec F S3x512 .f32 := Host.absf main_arg6
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  let main_v24 : FVec F S3x512x512 .f32 := Host.absf main_arg7
  let main_cst_8 : FVec F S_ .f32 := constant S_ .f32 0x7F800000#32
  let main_v25 : FVec F S3x512x512 .f32 := broadcastInDim S3x512x512 ![] bcast_S_S3x512x512 main_cst_8
  let main_v26 : IVec S3x512x512 1 := cmpf .olt main_v24 main_v25
  let main_c_9 : IVec S_ 1 := constantI S_ 1 1#1
  let main_v27 : IVec S_ 1 := (fun x v => Host.reduce IntOp.andi x v reducesTo_S3x512x512_S_d0_1_2 h_S_) main_v26 main_c_9
  let main_v28 : IVec S_ 1 := andi main_v23 main_v27
  let main_v29 : FVec F S3x512 .f32 := Host.absf main_arg8
  let main_cst_10 : FVec F S_ .f32 := constant S_ .f32 0x7F800000#32
  let main_v30 : FVec F S3x512 .f32 := broadcastInDim S3x512 ![] bcast_S_S3x512 main_cst_10
  let main_v31 : IVec S3x512 1 := cmpf .olt main_v29 main_v30
  let main_c_11 : IVec S_ 1 := constantI S_ 1 1#1
  let main_v32 : IVec S_ 1 := (fun x v => Host.reduce IntOp.andi x v reducesTo_S3x512_S_d0_1 h_S_) main_v31 main_c_11
  let main_v33 : IVec S_ 1 := andi main_v28 main_v32
  main_v33

def fn {F : FTy → Type} [FloatOps F] (main_arg0 : FVec F S50000x512 .f32) (main_arg1 : IVec S2x156000 32) (main_arg2 : IVec S156000 32) (main_arg3 : FVec F S512x512 .f32) (main_arg4 : FVec F S512 .f32) (main_arg5 : FVec F S3x512x512 .f32) (main_arg6 : FVec F S3x512 .f32) (main_arg7 : FVec F S3x512x512 .f32) (main_arg8 : FVec F S3x512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S3x512x512 .f32 := Host.absf main_arg5
  let main_cst_4 : FVec F S_ .f32 := constant S_ .f32 0x7F800000#32
  let main_v15 : FVec F S3x512x512 .f32 := broadcastInDim S3x512x512 ![] bcast_S_S3x512x512 main_cst_4
  let main_v16 : IVec S3x512x512 1 := cmpf .olt main_v14 main_v15
  fn_part1 (F := F) main_arg6 main_arg7 main_arg8 main_v13 main_v16
-- ==== Kernel.lean ====
abbrev S50000x512 : Shape := ⟨2, ![50000, 512]⟩
abbrev S2x156000 : Shape := ⟨2, ![2, 156000]⟩
abbrev S156000 : Shape := ⟨1, ![156000]⟩
abbrev S512x512 : Shape := ⟨2, ![512, 512]⟩
abbrev S512 : Shape := ⟨1, ![512]⟩
abbrev S3x512x512 : Shape := ⟨3, ![3, 512, 512]⟩
abbrev S3x512 : Shape := ⟨2, ![3, 512]⟩
abbrev S1x156000 : Shape := ⟨2, ![1, 156000]⟩
abbrev S_ : Shape := ⟨0, ![]⟩
abbrev S156000x1 : Shape := ⟨2, ![156000, 1]⟩
abbrev S156000x512 : Shape := ⟨2, ![156000, 512]⟩
abbrev S50000x1536 : Shape := ⟨2, ![50000, 1536]⟩
abbrev S400x512 : Shape := ⟨2, ![400, 512]⟩
abbrev S400x1536 : Shape := ⟨2, ![400, 1536]⟩
abbrev S1x512 : Shape := ⟨2, ![1, 512]⟩
abbrev S1x512x512 : Shape := ⟨3, ![1, 512, 512]⟩

abbrev nBuf : Space → Nat
  | .hbm => 60
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S2x156000, .i32⟩
  | .hbm, ⟨2, _⟩ => ⟨S156000, .i32⟩
  | .hbm, ⟨3, _⟩ => ⟨S512x512, .f32⟩
  | .hbm, ⟨4, _⟩ => ⟨S512, .f32⟩
  | .hbm, ⟨5, _⟩ => ⟨S3x512x512, .f32⟩
  | .hbm, ⟨6, _⟩ => ⟨S3x512, .f32⟩
  | .hbm, ⟨7, _⟩ => ⟨S3x512x512, .f32⟩
  | .hbm, ⟨8, _⟩ => ⟨S3x512, .f32⟩
  | .hbm, ⟨9, _⟩ => ⟨S1x156000, .i32⟩
  | .hbm, ⟨10, _⟩ => ⟨S156000, .i32⟩
  | .hbm, ⟨11, _⟩ => ⟨S1x156000, .i32⟩
  | .hbm, ⟨12, _⟩ => ⟨S156000, .i32⟩
  | .hbm, ⟨13, _⟩ => ⟨S_, .i32⟩
  | .hbm, ⟨14, _⟩ => ⟨S156000, .i32⟩
  | .hbm, ⟨15, _⟩ => ⟨S156000, .i1⟩
  | .hbm, ⟨16, _⟩ => ⟨S_, .i32⟩
  | .hbm, ⟨17, _⟩ => ⟨S156000, .i32⟩
  | .hbm, ⟨18, _⟩ => ⟨S156000, .i32⟩
  | .hbm, ⟨19, _⟩ => ⟨S156000, .i32⟩
  | .hbm, ⟨20, _⟩ => ⟨S156000x1, .i32⟩
  | .hbm, ⟨21, _⟩ => ⟨S156000x512, .f32⟩
  | .hbm, ⟨22, _⟩ => ⟨S_, .i32⟩
  | .hbm, ⟨23, _⟩ => ⟨S156000, .i32⟩
  | .hbm, ⟨24, _⟩ => ⟨S156000, .i1⟩
  | .hbm, ⟨25, _⟩ => ⟨S156000, .f32⟩
  | .hbm, ⟨26, _⟩ => ⟨S156000x1, .f32⟩
  | .hbm, ⟨27, _⟩ => ⟨S156000x512, .f32⟩
  | .hbm, ⟨28, _⟩ => ⟨S156000x512, .f32⟩
  | .hbm, ⟨29, _⟩ => ⟨S_, .f32⟩
  | .hbm, ⟨30, _⟩ => ⟨S50000x512, .f32⟩
  | .hbm, ⟨31, _⟩ => ⟨S156000x1, .i32⟩
  | .hbm, ⟨32, _⟩ => ⟨S50000x512, .f32⟩
  | .hbm, ⟨33, _⟩ => ⟨S_, .i32⟩
  | .hbm, ⟨34, _⟩ => ⟨S156000, .i32⟩
  | .hbm, ⟨35, _⟩ => ⟨S156000, .i1⟩
  | .hbm, ⟨36, _⟩ => ⟨S156000, .f32⟩
  | .hbm, ⟨37, _⟩ => ⟨S156000x1, .f32⟩
  | .hbm, ⟨38, _⟩ => ⟨S156000x512, .f32⟩
  | .hbm, ⟨39, _⟩ => ⟨S156000x512, .f32⟩
  | .hbm, ⟨40, _⟩ => ⟨S_, .f32⟩
  | .hbm, ⟨41, _⟩ => ⟨S50000x512, .f32⟩
  | .hbm, ⟨42, _⟩ => ⟨S156000x1, .i32⟩
  | .hbm, ⟨43, _⟩ => ⟨S50000x512, .f32⟩
  | .hbm, ⟨44, _⟩ => ⟨S_, .i32⟩
  | .hbm, ⟨45, _⟩ => ⟨S156000, .i32⟩
  | .hbm, ⟨46, _⟩ => ⟨S156000, .i1⟩
  | .hbm, ⟨47, _⟩ => ⟨S156000, .f32⟩
  | .hbm, ⟨48, _⟩ => ⟨S156000x1, .f32⟩
  | .hbm, ⟨49, _⟩ => ⟨S156000x512, .f32⟩
  | .hbm, ⟨50, _⟩ => ⟨S156000x512, .f32⟩
  | .hbm, ⟨51, _⟩ => ⟨S_, .f32⟩
  | .hbm, ⟨52, _⟩ => ⟨S50000x512, .f32⟩
  | .hbm, ⟨53, _⟩ => ⟨S156000x1, .i32⟩
  | .hbm, ⟨54, _⟩ => ⟨S50000x512, .f32⟩
  | .hbm, ⟨55, _⟩ => ⟨S50000x1536, .f32⟩
  | .hbm, ⟨56, _⟩ => ⟨S512x512, .bf16⟩
  | .hbm, ⟨57, _⟩ => ⟨S3x512x512, .bf16⟩
  | .hbm, ⟨58, _⟩ => ⟨S3x512x512, .bf16⟩
  | .hbm, ⟨59, _⟩ => ⟨S50000x512, .f32⟩
  | .local _ .vmem, ⟨0, _⟩ => ⟨S400x512, .f32⟩
  | .local _ .vmem, ⟨1, _⟩ => ⟨S400x512, .f32⟩
  | .local _ .vmem, ⟨2, _⟩ => ⟨S400x1536, .f32⟩
  | .local _ .vmem, ⟨3, _⟩ => ⟨S400x1536, .f32⟩
  | .local _ .vmem, ⟨4, _⟩ => ⟨S512x512, .bf16⟩
  | .local _ .vmem, ⟨5, _⟩ => ⟨S512, .f32⟩
  | .local _ .vmem, ⟨6, _⟩ => ⟨S3x512x512, .bf16⟩
  | .local _ .vmem, ⟨7, _⟩ => ⟨S3x512, .f32⟩
  | .local _ .vmem, ⟨8, _⟩ => ⟨S3x512x512, .bf16⟩
  | .local _ .vmem, ⟨9, _⟩ => ⟨S3x512, .f32⟩
  | .local _ .vmem, ⟨10, _⟩ => ⟨S400x512, .f32⟩
  | .local _ .vmem, ⟨11, _⟩ => ⟨S400x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S400x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x156000_S1x156000_0_0 : S2x156000.Slices ![0, 0] S1x156000
  shapeCasts_S1x156000_S156000 : S1x156000.ShapeCasts S156000
  slices_S2x156000_S1x156000_1_0 : S2x156000.Slices ![1, 0] S1x156000
  bcast_S_S156000 : S_.BroadcastsInDim S156000 (![] : Fin 0 → Fin S156000.rank)
  bcast_S156000_S156000x1_0 : S156000.BroadcastsInDim S156000x1 (![0] : Fin 1 → Fin S156000x1.rank)
  bcast_S156000x1_S156000x512_0_1 : S156000x1.BroadcastsInDim S156000x512 (![0, 1] : Fin 2 → Fin S156000x512.rank)
  bcast_S_S50000x512 : S_.BroadcastsInDim S50000x512 (![] : Fin 0 → Fin S50000x512.rank)
  concatenates_S50000x512_S50000x512_S50000x512_S50000x1536_d1 : Shape.Concatenates [S50000x512, S50000x512, S50000x512] S50000x1536 1
  bitsLt_bf16_f32 : FTy.bits .bf16 < FTy.bits .f32
  inb_S400x512_S400x512_0_0 : ∀ a, (![0, 0] : Fin 2 → Nat) a + S400x512.size a ≤ S400x512.size a
  h_S400x512 : 0 < S400x512.numel
  inb_S400x1536_S400x1536_0_0 : ∀ a, (![0, 0] : Fin 2 → Nat) a + S400x1536.size a ≤ S400x1536.size a
  h_S400x1536 : 0 < S400x1536.numel
  shapeCasts_S400x1536_S400x1536 : S400x1536.ShapeCasts S400x1536
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S400x512 : S1x512.Broadcasts S400x512
  slices_S400x1536_o0_0_S400x512 : S400x1536.Slices ![0, 0] S400x512
  inb_S3x512x512_S1x512x512_0_0_0 : ∀ a, (![0, 0, 0] : Fin 3 → Nat) a + S1x512x512.size a ≤ S3x512x512.size a
  h_S1x512x512 : 0 < S1x512x512.numel
  shapeCasts_S1x512x512_S512x512 : S1x512x512.ShapeCasts S512x512
  inb_S3x512_S1x512_0_0 : ∀ a, (![0, 0] : Fin 2 → Nat) a + S1x512.size a ≤ S3x512.size a
  h_S1x512 : 0 < S1x512.numel
  shapeCasts_S1x512_S512 : S1x512.ShapeCasts S512
  slices_S400x1536_o0_512_S400x512 : S400x1536.Slices ![0, 512] S400x512
  inb_S3x512x512_S1x512x512_1_0_0 : ∀ a, (![1, 0, 0] : Fin 3 → Nat) a + S1x512x512.size a ≤ S3x512x512.size a
  inb_S3x512_S1x512_1_0 : ∀ a, (![1, 0] : Fin 2 → Nat) a + S1x512.size a ≤ S3x512.size a
  slices_S400x1536_o0_1024_S400x512 : S400x1536.Slices ![0, 1024] S400x512
  inb_S3x512x512_S1x512x512_2_0_0 : ∀ a, (![2, 0, 0] : Fin 3 → Nat) a + S1x512x512.size a ≤ S3x512x512.size a
  inb_S3x512_S1x512_2_0 : ∀ a, (![2, 0] : Fin 2 → Nat) a + S1x512.size a ≤ S3x512.size a
  gather_S50000x512_S156000x1_S156000x512_1_0_n_n_0_1_1512_wf : GatherDims.WF S50000x512 S156000x1 S156000x512 [1] [0] [] [0] [] 1 ![1, 512]
  scatter_S50000x512_S156000x1_S156000x512_1_0_0_1_wf : ScatterDims.WF S50000x512 S156000x1 S156000x512 [1] [0] [0] 1
  dot_S400x512_S512x512_S400x512_1_0_0_1_n_n_wf : DotDims.WF S400x512 S512x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x512.size a ≤ S50000x512.size a
  hwx0_0 : ∀ i : grid0.Coords, EltTy.bits .f32 = 32 ∨ (Rect.block (s := S50000x512) S400x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1536.size a ≤ S50000x1536.size a
  hwx0_1 : ∀ i : grid0.Coords, EltTy.bits .f32 = 32 ∨ (Rect.block (s := S50000x1536) S400x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512x512.size a ≤ S3x512x512.size a
  hwx0_4 : ∀ i : grid0.Coords, EltTy.bits .bf16 = 32 ∨ (Rect.block (s := S3x512x512) S3x512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x512.size a ≤ S3x512.size a
  hwx0_5 : ∀ i : grid0.Coords, EltTy.bits .f32 = 32 ∨ (Rect.block (s := S3x512) S3x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x512x512.size a ≤ S3x512x512.size a
  hwx0_6 : ∀ i : grid0.Coords, EltTy.bits .bf16 = 32 ∨ (Rect.block (s := S3x512x512) S3x512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x512.size a ≤ S3x512.size a
  hwx0_7 : ∀ i : grid0.Coords, EltTy.bits .f32 = 32 ∨ (Rect.block (s := S3x512) S3x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x512.size a ≤ S50000x512.size a
  hwx0_8 : ∀ i : grid0.Coords, EltTy.bits .f32 = 32 ∨ (Rect.block (s := S50000x512) S400x512.size (cc0_transform_8 i) (hinb0_8 i)).WholeWords (EltTy.packing .f32)

variable [Facts₀]

def gather_S50000x512_S156000x1_S156000x512_1_0_n_n_0_1_1512 : GatherDims S50000x512 S156000x1 S156000x512 where
  offsetDims := [1]
  collapsedSliceDims := [0]
  operandBatchingDims := []
  startIndicesBatchingDims := []
  startIndexMap := [0]
  indexVectorDim := 1
  sliceSizes := ![1, 512]
  wf := gather_S50000x512_S156000x1_S156000x512_1_0_n_n_0_1_1512_wf
def scatter_S50000x512_S156000x1_S156000x512_1_0_0_1 : ScatterDims S50000x512 S156000x1 S156000x512 where
  updateWindowDims := [1]
  insertedWindowDims := [0]
  scatterDimsToOperandDims := [0]
  indexVectorDim := 1
  wf := scatter_S50000x512_S156000x1_S156000x512_1_0_0_1_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf

abbrev win0_0 : Pipeline.Window sig grid0 :=
  Pipeline.Window.ofSpec (Memref.whole main_arg0) S400x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S400x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S3x512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S3x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S3x512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S3x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S400x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x512 : Shape := ⟨2, ![50000, 512]⟩
abbrev S2x156000 : Shape := ⟨2, ![2, 156000]⟩
abbrev S156000 : Shape := ⟨1, ![156000]⟩
abbrev S512x512 : Shape := ⟨2, ![512, 512]⟩
abbrev S512 : Shape := ⟨1, ![512]⟩
abbrev S3x512x512 : Shape := ⟨3, ![3, 512, 512]⟩
abbrev S3x512 : Shape := ⟨2, ![3, 512]⟩
abbrev S1x156000 : Shape := ⟨2, ![1, 156000]⟩
abbrev S_ : Shape := ⟨0, ![]⟩
abbrev S156000x1 : Shape := ⟨2, ![156000, 1]⟩
abbrev S156000x512 : Shape := ⟨2, ![156000, 512]⟩
abbrev S1x512 : Shape := ⟨2, ![1, 512]⟩
abbrev S1x512x512 : Shape := ⟨3, ![1, 512, 512]⟩

abbrev nBuf : Space → Nat
  | .hbm => 131
  | .vmem => 0
  | .smem => 0
  | _ => 0

abbrev hbmTy0_0 (i : Nat) : BufTy := match i % 128 with
  | 0 => ⟨S50000x512, .f32⟩
  | 1 => ⟨S2x156000, .i32⟩
  | 2 => ⟨S156000, .i32⟩
  | 3 => ⟨S512x512, .f32⟩
  | 4 => ⟨S512, .f32⟩
  | 5 => ⟨S3x512x512, .f32⟩
  | 6 => ⟨S3x512, .f32⟩
  | 7 => ⟨S3x512x512, .f32⟩
  | 8 => ⟨S3x512, .f32⟩
  | 9 => ⟨S1x156000, .i32⟩
  | 10 => ⟨S156000, .i32⟩
  | 11 => ⟨S1x156000, .i32⟩
  | 12 => ⟨S156000, .i32⟩
  | 13 => ⟨S_, .i32⟩
  | 14 => ⟨S156000, .i32⟩
  | 15 => ⟨S156000, .i1⟩
  | 16 => ⟨S_, .i32⟩
  | 17 => ⟨S156000, .i32⟩
  | 18 => ⟨S156000, .i32⟩
  | 19 => ⟨S156000, .i32⟩
  | 20 => ⟨S156000x1, .i32⟩
  | 21 => ⟨S156000x512, .f32⟩
  | 22 => ⟨S50000x512, .f32⟩
  | 23 => ⟨S1x512, .f32⟩
  | 24 => ⟨S50000x512, .f32⟩
  | 25 => ⟨S50000x512, .f32⟩
  | 26 => ⟨S_, .i32⟩
  | 27 => ⟨S156000, .i32⟩
  | 28 => ⟨S156000, .i1⟩
  | 29 => ⟨S156000, .f32⟩
  | 30 => ⟨S156000x1, .f32⟩
  | 31 => ⟨S156000x512, .f32⟩
  | 32 => ⟨S156000x512, .f32⟩
  | 33 => ⟨S_, .f32⟩
  | 34 => ⟨S50000x512, .f32⟩
  | 35 => ⟨S156000x1, .i32⟩
  | 36 => ⟨S50000x512, .f32⟩
  | 37 => ⟨S_, .f32⟩
  | 38 => ⟨S50000x512, .f32⟩
  | 39 => ⟨S50000x512, .f32⟩
  | 40 => ⟨S50000x512, .f32⟩
  | 41 => ⟨S1x512x512, .f32⟩
  | 42 => ⟨S512x512, .f32⟩
  | 43 => ⟨S50000x512, .f32⟩
  | 44 => ⟨S1x512, .f32⟩
  | 45 => ⟨S512, .f32⟩
  | 46 => ⟨S1x512, .f32⟩
  | 47 => ⟨S50000x512, .f32⟩
  | 48 => ⟨S50000x512, .f32⟩
  | 49 => ⟨S_, .f32⟩
  | 50 => ⟨S50000x512, .f32⟩
  | 51 => ⟨S50000x512, .f32⟩
  | 52 => ⟨S1x512x512, .f32⟩
  | 53 => ⟨S512x512, .f32⟩
  | 54 => ⟨S50000x512, .f32⟩
  | 55 => ⟨S1x512, .f32⟩
  | 56 => ⟨S512, .f32⟩
  | 57 => ⟨S1x512, .f32⟩
  | 58 => ⟨S50000x512, .f32⟩
  | 59 => ⟨S50000x512, .f32⟩
  | 60 => ⟨S50000x512, .f32⟩
  | 61 => ⟨S_, .i32⟩
  | 62 => ⟨S156000, .i32⟩
  | 63 => ⟨S156000, .i1⟩
  | 64 => ⟨S156000, .f32⟩
  | 65 => ⟨S156000x1, .f32⟩
  | 66 => ⟨S156000x512, .f32⟩
  | 67 => ⟨S156000x512, .f32⟩
  | 68 => ⟨S_, .f32⟩
  | 69 => ⟨S50000x512, .f32⟩
  | 70 => ⟨S156000x1, .i32⟩
  | 71 => ⟨S50000x512, .f32⟩
  | 72 => ⟨S_, .f32⟩
  | 73 => ⟨S50000x512, .f32⟩
  | 74 => ⟨S50000x512, .f32⟩
  | 75 => ⟨S50000x512, .f32⟩
  | 76 => ⟨S1x512x512, .f32⟩
  | 77 => ⟨S512x512, .f32⟩
  | 78 => ⟨S50000x512, .f32⟩
  | 79 => ⟨S1x512, .f32⟩
  | 80 => ⟨S512, .f32⟩
  | 81 => ⟨S1x512, .f32⟩
  | 82 => ⟨S50000x512, .f32⟩
  | 83 => ⟨S50000x512, .f32⟩
  | 84 => ⟨S_, .f32⟩
  | 85 => ⟨S50000x512, .f32⟩
  | 86 => ⟨S50000x512, .f32⟩
  | 87 => ⟨S1x512x512, .f32⟩
  | 88 => ⟨S512x512, .f32⟩
  | 89 => ⟨S50000x512, .f32⟩
  | 90 => ⟨S1x512, .f32⟩
  | 91 => ⟨S512, .f32⟩
  | 92 => ⟨S1x512, .f32⟩
  | 93 => ⟨S50000x512, .f32⟩
  | 94 => ⟨S50000x512, .f32⟩
  | 95 => ⟨S50000x512, .f32⟩
  | 96 => ⟨S_, .i32⟩
  | 97 => ⟨S156000, .i32⟩
  | 98 => ⟨S156000, .i1⟩
  | 99 => ⟨S156000, .f32⟩
  | 100 => ⟨S156000x1, .f32⟩
  | 101 => ⟨S156000x512, .f32⟩
  | 102 => ⟨S156000x512, .f32⟩
  | 103 => ⟨S_, .f32⟩
  | 104 => ⟨S50000x512, .f32⟩
  | 105 => ⟨S156000x1, .i32⟩
  | 106 => ⟨S50000x512, .f32⟩
  | 107 => ⟨S_, .f32⟩
  | 108 => ⟨S50000x512, .f32⟩
  | 109 => ⟨S50000x512, .f32⟩
  | 110 => ⟨S50000x512, .f32⟩
  | 111 => ⟨S1x512x512, .f32⟩
  | 112 => ⟨S512x512, .f32⟩
  | 113 => ⟨S50000x512, .f32⟩
  | 114 => ⟨S1x512, .f32⟩
  | 115 => ⟨S512, .f32⟩
  | 116 => ⟨S1x512, .f32⟩
  | 117 => ⟨S50000x512, .f32⟩
  | 118 => ⟨S50000x512, .f32⟩
  | 119 => ⟨S_, .f32⟩
  | 120 => ⟨S50000x512, .f32⟩
  | 121 => ⟨S50000x512, .f32⟩
  | 122 => ⟨S1x512x512, .f32⟩
  | 123 => ⟨S512x512, .f32⟩
  | 124 => ⟨S50000x512, .f32⟩
  | 125 => ⟨S1x512, .f32⟩
  | 126 => ⟨S512, .f32⟩
  | 127 => ⟨S1x512, .f32⟩
  | _ => ⟨S50000x512, .f32⟩

abbrev hbmTy0_1 (i : Nat) : BufTy := match i % 128 with
  | 0 => ⟨S50000x512, .f32⟩
  | 1 => ⟨S50000x512, .f32⟩
  | 2 => ⟨S50000x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_7 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_c_8 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_9 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_10 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_11 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩

abbrev nD : Nat := 1
abbrev τ : Topo := Topo.v7x

variable {F : FTy → Type} [FloatOps F]

class Facts₀ : Prop where
  slices_S2x156000_S1x156000_0_0 : S2x156000.Slices ![0, 0] S1x156000
  shapeCasts_S1x156000_S156000 : S1x156000.ShapeCasts S156000
  slices_S2x156000_S1x156000_1_0 : S2x156000.Slices ![1, 0] S1x156000
  bcast_S_S156000 : S_.BroadcastsInDim S156000 (![] : Fin 0 → Fin S156000.rank)
  bcast_S156000_S156000x1_0 : S156000.BroadcastsInDim S156000x1 (![0] : Fin 1 → Fin S156000x1.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S156000x1_S156000x512_0_1 : S156000x1.BroadcastsInDim S156000x512 (![0, 1] : Fin 2 → Fin S156000x512.rank)
  bcast_S_S50000x512 : S_.BroadcastsInDim S50000x512 (![] : Fin 0 → Fin S50000x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  gather_S50000x512_S156000x1_S156000x512_1_0_n_n_0_1_1512_wf : GatherDims.WF S50000x512 S156000x1 S156000x512 [1] [0] [] [0] [] 1 ![1, 512]
  dot_S50000x512_S512x512_S50000x512_1_0_0_1_n_n_wf : DotDims.WF S50000x512 S512x512 S50000x512 [1] [0] [0] [1] [] []
  scatter_S50000x512_S156000x1_S156000x512_1_0_0_1_wf : ScatterDims.WF S50000x512 S156000x1 S156000x512 [1] [0] [0] 1

variable [Facts₀]

def gather_S50000x512_S156000x1_S156000x512_1_0_n_n_0_1_1512 : GatherDims S50000x512 S156000x1 S156000x512 where
  offsetDims := [1]
  collapsedSliceDims := [0]
  operandBatchingDims := []
  startIndicesBatchingDims := []
  startIndexMap := [0]
  indexVectorDim := 1
  sliceSizes := ![1, 512]
  wf := gather_S50000x512_S156000x1_S156000x512_1_0_n_n_0_1_1512_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def scatter_S50000x512_S156000x1_S156000x512_1_0_0_1 : ScatterDims S50000x512 S156000x1 S156000x512 where
  updateWindowDims := [1]
  insertedWindowDims := [0]
  scatterDimsToOperandDims := [0]
  indexVectorDim := 1
  wf := scatter_S50000x512_S156000x1_S156000x512_1_0_0_1_wf

class Facts : Prop extends Facts₀ where

variable [Facts]
-- ==== Proof.KernelFrame.lean ====
/-
  The frame of the program: it runs to the end, faults nowhere, and leaves its nine argument arrays as it found them —
  together with what the one launch leaves in the result array, block by block.

  @main is fifty host operations (the gather of source rows, the three masked scatter-adds, their concatenation into a
  [50000, 1536] array, three changes of float format) followed by one launch over 125 grid points. At point `t` the body
  is handed rows 400·t … 400·t+399 of the node features and of the concatenated aggregates and the whole of the six weight
  and bias arrays; it loads them, computes, and overwrites its one output block with a value that is a pure function of
  what it loaded. So the proof data is: every input window's buffer holds its block before and after the body, the output
  window's buffer holds that pure function of the input blocks after it; nothing else is touched. The host operations
  write only their own result buffers, none of which is an argument.
-/
import proofs.«122277_j8280696947363_1_alg».proof.Proof.Gen.Kernel.Launch
import proofs.«122277_j8280696947363_1_alg».proof.Proof.Gen.Kernel.Skeleton
import proofs.«122277_j8280696947363_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- The buffers of core `c` when the launch begins: the launch contents after the fifty host operations. -/
abbrev V (c : Dev nD) (b : Ref sig .tc) : Buf (Elt F) ((c : Thread nD τ).loc b) := StableHlo.after hostOps0 (fun b => m (c, b)) b

/-- No host operation allocates anything. -/
theorem hostOps0_fresh : (hostOps0 : List (HloOp τ sig (Elt F))).Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, whether it was fetched there or not (an unfetched
    window's block index has not moved), for any proof data over the launch-time arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, whether it was fetched there or not (an unfetched
    window's block index has not moved), for any proof data over the launch-time arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, whether it was fetched there or not (an unfetched
    window's block index has not moved), for any proof data over the launch-time arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, whether it was fetched there or not (an unfetched
    window's block index has not moved), for any proof data over the launch-time arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, whether it was fetched there or not (an unfetched
    window's block index has not moved), for any proof data over the launch-time arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, whether it was fetched there or not (an unfetched
    window's block index has not moved), for any proof data over the launch-time arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, whether it was fetched there or not (an unfetched
    window's block index has not moved), for any proof data over the launch-time arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, whether it was fetched there or not (an unfetched
    window's block index has not moved), for any proof data over the launch-time arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- For any proof data over the launch-time arrays, a run ending with every window's array at what the proof data says and
    every other buffer as the launch found it leaves the nine arguments unchanged: an argument that is an input window's
    array is never written back, the others are outside the launch, and no host operation wrote either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).2 main_arg5 (Pipeline.mem_restRefs_of main_arg5 (by decide) (by decide))).trans (V_main_arg5 m c),
      ((h c).1 5).trans (((dats 0 c).arrAt_in 5 rfl _).trans ((hA c 5).trans (V_main_arg6 m c))),
      ((h c).2 main_arg7 (Pipeline.mem_restRefs_of main_arg7 (by decide) (by decide))).trans (V_main_arg7 m c),
      ((h c).1 7).trans (((dats 0 c).arrAt_in 7 rfl _).trans ((hA c 7).trans (V_main_arg8 m c)))⟩) h

/-! ## The body's accesses -/

/-- The whole [400, 512] block (the feature rows, and the output block). -/
abbrev rX : Rect S400x512 := Rect.unit (s := S400x512) ![0, 0] S400x512.size inb_S400x512_S400x512_0_0
/-- The whole [400, 1536] block of the concatenated aggregates. -/
abbrev rA : Rect S400x1536 := Rect.unit (s := S400x1536) ![0, 0] S400x1536.size inb_S400x1536_S400x1536_0_0
/-- The whole self-loop weight matrix. -/
abbrev rW : Rect S512x512 := Rect.unit (s := S512x512) ![0, 0] S512x512.size inb_S512x512_S512x512_0_0
/-- The whole self-loop bias. -/
abbrev rB : Rect S512 := Rect.unit (s := S512) ![0] S512.size inb_S512_S512_0
/-- Relation 0's, 1's, 2's [512, 512] slab of a stacked weight array. -/
abbrev rS0 : Rect S3x512x512 := Rect.unit (s := S3x512x512) ![0, 0, 0] S1x512x512.size inb_S3x512x512_S1x512x512_0_0_0
abbrev rS1 : Rect S3x512x512 := Rect.unit (s := S3x512x512) ![1, 0, 0] S1x512x512.size inb_S3x512x512_S1x512x512_1_0_0
abbrev rS2 : Rect S3x512x512 := Rect.unit (s := S3x512x512) ![2, 0, 0] S1x512x512.size inb_S3x512x512_S1x512x512_2_0_0
/-- Relation 0's, 1's, 2's row of a stacked bias array. -/
abbrev rR0 : Rect S3x512 := Rect.unit (s := S3x512) ![0, 0] S1x512.size inb_S3x512_S1x512_0_0
abbrev rR1 : Rect S3x512 := Rect.unit (s := S3x512) ![1, 0] S1x512.size inb_S3x512_S1x512_1_0
abbrev rR2 : Rect S3x512 := Rect.unit (s := S3x512) ![2, 0] S1x512.size inb_S3x512_S1x512_2_0

/-! ## What the body leaves in the output window's buffer -/

/-- The output buffer after the body, from the eight input blocks: its one store, of the body's arithmetic applied to the
    sixteen loads (the features, the aggregates, the self-loop weights and bias, and per relation a slab of each stacked
    weight array and a row of each stacked bias array). -/
def out0_8 (x0 : Vec F S400x512 .f32) (x1 : Vec F S400x1536 .f32) (x2 : Vec F S512x512 .bf16) (x3 : Vec F S512 .f32)
    (x4 : Vec F S3x512x512 .bf16) (x5 : Vec F S3x512 .f32) (x6 : Vec F S3x512x512 .bf16) (x7 : Vec F S3x512 .f32) : Vec F S400x512 .f32 :=
  View.canon [⟨rX, k0_pay1
    (k0_pay5 (k0_pay3 (View.ld x0 rX) (View.ld x1 rA) (View.ld x2 rW) (View.ld x3 rB) (View.ld x4 rS0) (View.ld x5 rR0) (View.ld x6 rS0) (View.ld x7 rR0))
      (k0_pay4 (View.ld x0 rX) (View.ld x1 rA)) (View.ld x4 rS1) (View.ld x5 rR1) (View.ld x6 rS1) (View.ld x7 rR1))
    (k0_pay6 (View.ld x0 rX) (k0_pay2 (View.ld x1 rA)) (View.ld x4 rS2) (View.ld x5 rR2) (View.ld x6 rS2))
    (View.ld x7 rR2)⟩]

/-- The one store covers the buffer. -/
theorem cover0_8 (p0 : Vec F S400x512 .f32) (y : S400x512.Idx) :
    ∃ pc ∈ ([⟨rX, p0⟩] : List (View.Piece (Elt F) S400x512 .f32)), y ∈ pc.1.set :=
  View.cover_of_tiled [⟨rX, p0⟩] S400x512.size (by rfl) y

/-! ## The body's triple -/

set_option maxHeartbeats 2000000 in
/-- The body, on whole buffers holding `x0 … x7` (inputs) and anything (output), runs to its end with the inputs as they
    were and the output at `out0_8` of them. -/
theorem sound_kernel (c : Dev nD) (E : Set ℕ) (i : grid0.Coords)
    (arg1 : Memref sig .tc .vmem S400x512 .f32) (harg1 : arg1.IsWhole) (arg2 : Memref sig .tc .vmem S400x1536 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S3x512x512 .bf16) (harg5 : arg5.IsWhole) (arg6 : Memref sig .tc .vmem S3x512 .f32) (harg6 : arg6.IsWhole) (arg7 : Memref sig .tc .vmem S3x512x512 .bf16) (harg7 : arg7.IsWhole) (arg8 : Memref sig .tc .vmem S3x512 .f32) (harg8 : arg8.IsWhole) (arg9 : Memref sig .tc .vmem S400x512 .f32) (harg9 : arg9.IsWhole)
    (x0 : Vec F S400x512 .f32) (x1 : Vec F S400x1536 .f32) (x2 : Vec F S512x512 .bf16) (x3 : Vec F S512 .f32) (x4 : Vec F S3x512x512 .bf16) (x5 : Vec F S3x512 .f32) (x6 : Vec F S3x512x512 .bf16) (x7 : Vec F S3x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__gin_kernel i arg1 harg1 arg2 harg2 arg3 harg3 arg4 harg4 arg5 harg5 arg6 harg6 arg7 harg7 arg8 harg8 arg9 harg9) K := by
  simp only [cc0__gin_kernel_eq_skeleton]; unfold cc0__gin_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The proof data -/

/-- On core `c`: the arrays as the launch finds them; after the body at point `t` every input buffer at its block and the
    output buffer at `out0_8` of the input blocks; the invariant only what the body may not touch; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the input buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every window's array at what the proof data computes and every
    other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its nine arguments are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Frame

end
-- ==== Proof.KernelIdealFrame.lean ====
/-
  The frame of the program: it runs to the end, faults nowhere, and leaves its nine argument arrays as it found them —
  together with what the one launch leaves in the result array, block by block.

  @main is fifty host operations (the gather of source rows, the three masked scatter-adds, their concatenation into a
  [50000, 1536] array, three changes of float format) followed by one launch over 125 grid points. At point `t` the body
  is handed rows 400·t … 400·t+399 of the node features and of the concatenated aggregates and the whole of the six weight
  and bias arrays; it loads them, computes, and overwrites its one output block with a value that is a pure function of
  what it loaded. So the proof data is: every input window's buffer holds its block before and after the body, the output
  window's buffer holds that pure function of the input blocks after it; nothing else is touched. The host operations
  write only their own result buffers, none of which is an argument.
-/
import proofs.«122277_j8280696947363_1_alg».proof.Proof.Gen.KernelIdeal.Launch
import proofs.«122277_j8280696947363_1_alg».proof.Proof.Gen.KernelIdeal.Skeleton
import proofs.«122277_j8280696947363_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- The buffers of core `c` when the launch begins: the launch contents after the fifty host operations. -/
abbrev V (c : Dev nD) (b : Ref sig .tc) : Buf (Elt F) ((c : Thread nD τ).loc b) := StableHlo.after hostOps0 (fun b => m (c, b)) b

/-- No host operation allocates anything. -/
theorem hostOps0_fresh : (hostOps0 : List (HloOp τ sig (Elt F))).Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, whether it was fetched there or not (an unfetched
    window's block index has not moved), for any proof data over the launch-time arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, whether it was fetched there or not (an unfetched
    window's block index has not moved), for any proof data over the launch-time arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, whether it was fetched there or not (an unfetched
    window's block index has not moved), for any proof data over the launch-time arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, whether it was fetched there or not (an unfetched
    window's block index has not moved), for any proof data over the launch-time arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, whether it was fetched there or not (an unfetched
    window's block index has not moved), for any proof data over the launch-time arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, whether it was fetched there or not (an unfetched
    window's block index has not moved), for any proof data over the launch-time arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, whether it was fetched there or not (an unfetched
    window's block index has not moved), for any proof data over the launch-time arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, whether it was fetched there or not (an unfetched
    window's block index has not moved), for any proof data over the launch-time arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- For any proof data over the launch-time arrays, a run ending with every window's array at what the proof data says and
    every other buffer as the launch found it leaves the nine arguments unchanged: an argument that is an input window's
    array is never written back, the others are outside the launch, and no host operation wrote either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).2 main_arg5 (Pipeline.mem_restRefs_of main_arg5 (by decide) (by decide))).trans (V_main_arg5 m c),
      ((h c).1 5).trans (((dats 0 c).arrAt_in 5 rfl _).trans ((hA c 5).trans (V_main_arg6 m c))),
      ((h c).2 main_arg7 (Pipeline.mem_restRefs_of main_arg7 (by decide) (by decide))).trans (V_main_arg7 m c),
      ((h c).1 7).trans (((dats 0 c).arrAt_in 7 rfl _).trans ((hA c 7).trans (V_main_arg8 m c)))⟩) h

/-! ## The body's accesses -/

/-- The whole [400, 512] block (the feature rows, and the output block). -/
abbrev rX : Rect S400x512 := Rect.unit (s := S400x512) ![0, 0] S400x512.size inb_S400x512_S400x512_0_0
/-- The whole [400, 1536] block of the concatenated aggregates. -/
abbrev rA : Rect S400x1536 := Rect.unit (s := S400x1536) ![0, 0] S400x1536.size inb_S400x1536_S400x1536_0_0
/-- The whole self-loop weight matrix. -/
abbrev rW : Rect S512x512 := Rect.unit (s := S512x512) ![0, 0] S512x512.size inb_S512x512_S512x512_0_0
/-- The whole self-loop bias. -/
abbrev rB : Rect S512 := Rect.unit (s := S512) ![0] S512.size inb_S512_S512_0
/-- Relation 0's, 1's, 2's [512, 512] slab of a stacked weight array. -/
abbrev rS0 : Rect S3x512x512 := Rect.unit (s := S3x512x512) ![0, 0, 0] S1x512x512.size inb_S3x512x512_S1x512x512_0_0_0
abbrev rS1 : Rect S3x512x512 := Rect.unit (s := S3x512x512) ![1, 0, 0] S1x512x512.size inb_S3x512x512_S1x512x512_1_0_0
abbrev rS2 : Rect S3x512x512 := Rect.unit (s := S3x512x512) ![2, 0, 0] S1x512x512.size inb_S3x512x512_S1x512x512_2_0_0
/-- Relation 0's, 1's, 2's row of a stacked bias array. -/
abbrev rR0 : Rect S3x512 := Rect.unit (s := S3x512) ![0, 0] S1x512.size inb_S3x512_S1x512_0_0
abbrev rR1 : Rect S3x512 := Rect.unit (s := S3x512) ![1, 0] S1x512.size inb_S3x512_S1x512_1_0
abbrev rR2 : Rect S3x512 := Rect.unit (s := S3x512) ![2, 0] S1x512.size inb_S3x512_S1x512_2_0

/-! ## What the body leaves in the output window's buffer -/

/-- The output buffer after the body, from the eight input blocks: its one store, of the body's arithmetic applied to the
    sixteen loads (the features, the aggregates, the self-loop weights and bias, and per relation a slab of each stacked
    weight array and a row of each stacked bias array). -/
def out0_8 (x0 : Vec F S400x512 .f32) (x1 : Vec F S400x1536 .f32) (x2 : Vec F S512x512 .bf16) (x3 : Vec F S512 .f32)
    (x4 : Vec F S3x512x512 .bf16) (x5 : Vec F S3x512 .f32) (x6 : Vec F S3x512x512 .bf16) (x7 : Vec F S3x512 .f32) : Vec F S400x512 .f32 :=
  View.canon [⟨rX, k0_pay1
    (k0_pay5 (k0_pay3 (View.ld x0 rX) (View.ld x1 rA) (View.ld x2 rW) (View.ld x3 rB) (View.ld x4 rS0) (View.ld x5 rR0) (View.ld x6 rS0) (View.ld x7 rR0))
      (k0_pay4 (View.ld x0 rX) (View.ld x1 rA)) (View.ld x4 rS1) (View.ld x5 rR1) (View.ld x6 rS1) (View.ld x7 rR1))
    (k0_pay6 (View.ld x0 rX) (k0_pay2 (View.ld x1 rA)) (View.ld x4 rS2) (View.ld x5 rR2) (View.ld x6 rS2))
    (View.ld x7 rR2)⟩]

/-- The one store covers the buffer. -/
theorem cover0_8 (p0 : Vec F S400x512 .f32) (y : S400x512.Idx) :
    ∃ pc ∈ ([⟨rX, p0⟩] : List (View.Piece (Elt F) S400x512 .f32)), y ∈ pc.1.set :=
  View.cover_of_tiled [⟨rX, p0⟩] S400x512.size (by rfl) y

/-! ## The body's triple -/

set_option maxHeartbeats 2000000 in
/-- The body, on whole buffers holding `x0 … x7` (inputs) and anything (output), runs to its end with the inputs as they
    were and the output at `out0_8` of them. -/
theorem sound_kernel (c : Dev nD) (E : Set ℕ) (i : grid0.Coords)
    (arg1 : Memref sig .tc .vmem S400x512 .f32) (harg1 : arg1.IsWhole) (arg2 : Memref sig .tc .vmem S400x1536 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S3x512x512 .bf16) (harg5 : arg5.IsWhole) (arg6 : Memref sig .tc .vmem S3x512 .f32) (harg6 : arg6.IsWhole) (arg7 : Memref sig .tc .vmem S3x512x512 .bf16) (harg7 : arg7.IsWhole) (arg8 : Memref sig .tc .vmem S3x512 .f32) (harg8 : arg8.IsWhole) (arg9 : Memref sig .tc .vmem S400x512 .f32) (harg9 : arg9.IsWhole)
    (x0 : Vec F S400x512 .f32) (x1 : Vec F S400x1536 .f32) (x2 : Vec F S512x512 .bf16) (x3 : Vec F S512 .f32) (x4 : Vec F S3x512x512 .bf16) (x5 : Vec F S3x512 .f32) (x6 : Vec F S3x512x512 .bf16) (x7 : Vec F S3x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__gin_kernel i arg1 harg1 arg2 harg2 arg3 harg3 arg4 harg4 arg5 harg5 arg6 harg6 arg7 harg7 arg8 harg8 arg9 harg9) K := by
  simp only [cc0__gin_kernel_eq_skeleton]; unfold cc0__gin_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The proof data -/

/-- On core `c`: the arrays as the launch finds them; after the body at point `t` every input buffer at its block and the
    output buffer at `out0_8` of the input blocks; the invariant only what the body may not touch; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the input buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every window's array at what the proof data computes and every
    other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its nine arguments are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Frame

end
-- ==== Proof.Spec.lean ====
/-
  The function both programs compute, on the extended reals, one output row at a time.

  A node's output row depends on its own feature row `x`, on its three per-relation aggregate rows `a0 a1 a2` (the
  sums of the source rows of the incoming edges of relation 0, 1, 2), and on the weights:
    out = (x · Ws + bs) + Σ_r ( relu((x + a_r) · W1_r + b1_r) · W2_r + b2_r ),
  the three relations added one after the other, left to right. Nothing here needs a finite value: every step is a
  sum, a product or a maximum on the extended reals, and both programs perform the same steps in the same order.
-/
import Idealize.ShloMosaic.PureOps.Ideal
import Idealize.ShloMosaic.Lib.ValueIdx

noncomputable section

open scoped BigOperators

namespace Cert.Spec

open Idealize.ShloMosaic Idealize.ShloMosaic.ValueIdx

/-- Column `k` of the `r`-th 512-wide stretch of a 1536-wide row (three rows laid side by side). -/
def col (r : Fin 3) (k : Fin 512) : Fin 1536 := ⟨512 * r.val + k.val, by have := r.isLt; have := k.isLt; omega⟩

@[simp] theorem col_val (r : Fin 3) (k : Fin 512) : (col r k).val = 512 * r.val + k.val := rfl

/-- Entry `q` of a row times a matrix plus a bias row: `(Σ_k l k · w k q) + b q`. -/
def lin (l : Fin 512 → EReal) (w : Fin 512 → Fin 512 → EReal) (b : Fin 512 → EReal) (q : Fin 512) : EReal :=
  (∑ k : Fin 512, l k * w k q) + b q

/-- Entry `q` of one relation's two-layer perceptron on the row `x + a`:
    `relu((x + a) · w1 + b1) · w2 + b2`, the rectifier being the maximum with zero. -/
def mlp (x a : Fin 512 → EReal) (w1 : Fin 512 → Fin 512 → EReal) (b1 : Fin 512 → EReal)
    (w2 : Fin 512 → Fin 512 → EReal) (b2 : Fin 512 → EReal) (q : Fin 512) : EReal :=
  lin (fun j => max (lin (fun k => x k + a k) w1 b1 j) 0) w2 b2 q

/-- Entry `q` of a node's output row: the self-loop linear map of `x`, then the three relations' perceptrons added
    one after the other. -/
def rowOut (x : Fin 512 → EReal) (ws : Fin 512 → Fin 512 → EReal) (bs : Fin 512 → EReal)
    (a0 : Fin 512 → EReal) (w10 : Fin 512 → Fin 512 → EReal) (b10 : Fin 512 → EReal) (w20 : Fin 512 → Fin 512 → EReal) (b20 : Fin 512 → EReal)
    (a1 : Fin 512 → EReal) (w11 : Fin 512 → Fin 512 → EReal) (b11 : Fin 512 → EReal) (w21 : Fin 512 → Fin 512 → EReal) (b21 : Fin 512 → EReal)
    (a2 : Fin 512 → EReal) (w12 : Fin 512 → Fin 512 → EReal) (b12 : Fin 512 → EReal) (w22 : Fin 512 → Fin 512 → EReal) (b22 : Fin 512 → EReal)
    (q : Fin 512) : EReal :=
  ((lin x ws bs q + mlp x a0 w10 b10 w20 b20 q) + mlp x a1 w11 b11 w21 b21 q) + mlp x a2 w12 b12 w22 b22 q

/-- The whole result array from the whole argument arrays and the three aggregate arrays: row `i 0`, column `i 1`;
    relation `r`'s weights are slab `r` of the stacked weight arrays. -/
def G (X A0 A1 A2 : (⟨2, ![50000, 512]⟩ : Shape).Idx → EReal)
    (Ws : (⟨2, ![512, 512]⟩ : Shape).Idx → EReal) (Bs : (⟨1, ![512]⟩ : Shape).Idx → EReal)
    (W1 : (⟨3, ![3, 512, 512]⟩ : Shape).Idx → EReal) (B1 : (⟨2, ![3, 512]⟩ : Shape).Idx → EReal)
    (W2 : (⟨3, ![3, 512, 512]⟩ : Shape).Idx → EReal) (B2 : (⟨2, ![3, 512]⟩ : Shape).Idx → EReal) :
    (⟨2, ![50000, 512]⟩ : Shape).Idx → EReal :=
  fun i =>
    rowOut (fun k => X (ix2 (i 0) k)) (fun k j => Ws (ix2 k j)) (fun j => Bs (ix1 j))
      (fun k => A0 (ix2 (i 0) k)) (fun k j => W1 (ix3 (0 : Fin 3) k j)) (fun j => B1 (ix2 (0 : Fin 3) j))
        (fun k j => W2 (ix3 (0 : Fin 3) k j)) (fun j => B2 (ix2 (0 : Fin 3) j))
      (fun k => A1 (ix2 (i 0) k)) (fun k j => W1 (ix3 (1 : Fin 3) k j)) (fun j => B1 (ix2 (1 : Fin 3) j))
        (fun k j => W2 (ix3 (1 : Fin 3) k j)) (fun j => B2 (ix2 (1 : Fin 3) j))
      (fun k => A2 (ix2 (i 0) k)) (fun k j => W1 (ix3 (2 : Fin 3) k j)) (fun j => B1 (ix2 (2 : Fin 3) j))
        (fun k j => W2 (ix3 (2 : Fin 3) k j)) (fun j => B2 (ix2 (2 : Fin 3) j))
      (i 1)

/-- `G` at the index with coordinates `p`, `q`. -/
theorem G_ix2 (X A0 A1 A2 : (⟨2, ![50000, 512]⟩ : Shape).Idx → EReal)
    (Ws : (⟨2, ![512, 512]⟩ : Shape).Idx → EReal) (Bs : (⟨1, ![512]⟩ : Shape).Idx → EReal)
    (W1 : (⟨3, ![3, 512, 512]⟩ : Shape).Idx → EReal) (B1 : (⟨2, ![3, 512]⟩ : Shape).Idx → EReal)
    (W2 : (⟨3, ![3, 512, 512]⟩ : Shape).Idx → EReal) (B2 : (⟨2, ![3, 512]⟩ : Shape).Idx → EReal)
    (p : Fin 50000) (q : Fin 512) :
    G X A0 A1 A2 Ws Bs W1 B1 W2 B2 (ix2 p q)
      = rowOut (fun k => X (ix2 p k)) (fun k j => Ws (ix2 k j)) (fun j => Bs (ix1 j))
          (fun k => A0 (ix2 p k)) (fun k j => W1 (ix3 (0 : Fin 3) k j)) (fun j => B1 (ix2 (0 : Fin 3) j))
            (fun k j => W2 (ix3 (0 : Fin 3) k j)) (fun j => B2 (ix2 (0 : Fin 3) j))
          (fun k => A1 (ix2 p k)) (fun k j => W1 (ix3 (1 : Fin 3) k j)) (fun j => B1 (ix2 (1 : Fin 3) j))
            (fun k j => W2 (ix3 (1 : Fin 3) k j)) (fun j => B2 (ix2 (1 : Fin 3) j))
          (fun k => A2 (ix2 p k)) (fun k j => W1 (ix3 (2 : Fin 3) k j)) (fun j => B1 (ix2 (2 : Fin 3) j))
            (fun k j => W2 (ix3 (2 : Fin 3) k j)) (fun j => B2 (ix2 (2 : Fin 3) j))
          q := rfl

end Cert.Spec

end
-- ==== Proof.LibRowJoin3.lean ====
/-
  Three row-aligned arrays joined along their columns, read at an entry.

  Three arrays of shape [a, n] concatenated along axis 1 give an [a, N] array with N = n + n + n.  Row p of the
  result is the three rows p laid end to end: column k holds the first array's entry (p, k) for k < n, the second's
  entry (p, k - n) for n ≤ k < 2n, and the third's entry (p, k - 2n) beyond.  `join3` is that row as a function of the
  three rows; the row count a is a variable, so the reading is the same for one tile of rows and for the whole array.
-/
import Idealize.ShloMosaic.Lib.ValueIdx
import Idealize.ShloMosaic.Lib.Pipeline.Value

noncomputable section

namespace Cert.RowJoin3

open Idealize.ShloMosaic Idealize.ShloMosaic.ValueIdx

variable {α : Type}

/-- Three rows of length n laid end to end, as one row of length N = n + n + n. -/
def join3 {n : ℕ} (x y z : Fin n → α) (N : ℕ) (hN : N = n + n + n) (k : Fin N) : α :=
  if h1 : k.val < n then x ⟨k.val, h1⟩
  else if h2 : k.val < n + n then y ⟨k.val - n, by omega⟩
  else z ⟨k.val - (n + n), by have := k.isLt; omega⟩

/-- Two joined rows agree when their three parts agree. -/
theorem join3_congr {n : ℕ} {x y z x' y' z' : Fin n → α} (N : ℕ) (hN : N = n + n + n)
    (hx : ∀ d, x d = x' d) (hy : ∀ d, y d = y' d) (hz : ∀ d, z d = z' d) (k : Fin N) :
    join3 x y z N hN k = join3 x' y' z' N hN k := by
  unfold join3
  split
  · exact hx _
  · split
    · exact hy _
    · exact hz _

/-- The concatenation of three [a, n] arrays along axis 1, read at (p, k), is the joined row p at k. -/
theorem concatenate_apply {a n N : ℕ} (hN : N = n + n + n)
    (A B C : (⟨2, ![a, n]⟩ : Shape).Idx → α)
    (h : Shape.Concatenates (([⟨⟨2, ![a, n]⟩, A⟩, ⟨⟨2, ![a, n]⟩, B⟩, ⟨⟨2, ![a, n]⟩, C⟩] :
      List ((s : Shape) × (s.Idx → α))).map (·.1)) ⟨2, ![a, N]⟩ 1)
    (p : Fin a) (k : Fin N) :
    concatenate ⟨2, ![a, N]⟩ 1 [⟨⟨2, ![a, n]⟩, A⟩, ⟨⟨2, ![a, n]⟩, B⟩, ⟨⟨2, ![a, n]⟩, C⟩] h (ix2 p k)
      = join3 (fun d => A (ix2 p d)) (fun d => B (ix2 p d)) (fun d => C (ix2 p d)) N hN k := by
  unfold join3
  have hoff : ∀ (d : Fin n) (b : Fin (⟨2, ![a, n]⟩ : Shape).rank), b.cast (rfl : (2 : ℕ) = 2) ≠ (1 : Fin 2) →
      ((ix2 p d : (⟨2, ![a, n]⟩ : Shape).Idx) b).val = ((ix2 p k : (⟨2, ![a, N]⟩ : Shape).Idx) (b.cast rfl)).val := by
    intro d b hb
    match b with
    | ⟨0, _⟩ => rfl
    | ⟨1, _⟩ => exact absurd rfl hb
  split
  · next h1 =>
    exact concatenate_apply_piece (1 : Fin 2) _ h (ix2 p k) 0 (by show (0 : ℕ) < 3; omega) ⟨2, ![a, n]⟩ A rfl rfl 0 rfl
      (ix2 p ⟨k.val, h1⟩) (hoff _) (by show 0 + k.val = k.val; omega)
  · next h1 =>
    split
    · next h2 =>
      exact concatenate_apply_piece (1 : Fin 2) _ h (ix2 p k) 1 (by show (1 : ℕ) < 3; omega) ⟨2, ![a, n]⟩ B rfl rfl n (by simp)
        (ix2 p ⟨k.val - n, by omega⟩) (hoff _) (by show n + (k.val - n) = k.val; omega)
    · next h2 =>
      exact concatenate_apply_piece (1 : Fin 2) _ h (ix2 p k) 2 (by show (2 : ℕ) < 3; omega) ⟨2, ![a, n]⟩ C rfl rfl (n + n) (by simp)
        (ix2 p ⟨k.val - (n + n), by have := k.isLt; omega⟩) (hoff _) (by show n + n + (k.val - (n + n)) = k.val; omega)

end Cert.RowJoin3

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.PayloadOps.lean ====
/-
  The kernel's operations read at one entry, on the extended reals.

  Each lemma reads one group of the body's operations at the entry (p, q) of a 400 × 512 block:
  a product of a 400 × 512 by a 512 × 512 array accumulated onto zero is the sum over the 512 columns;
  a bias row kept as [1, 512] (or loaded as [512]) and repeated over the 400 rows reads its entry q;
  a weight slab loaded as [1, 512, 512] and flattened to [512, 512] reads its entry (0, k, j);
  the r-th 512-wide stretch cut out of a 1536-wide block reads the block at column 512 r + k;
  and the rectifier's zero array reads 0.
-/
import proofs.«122277_j8280696947363_1_alg».proof.Proof.Gen.KernelIdeal.Skeleton
import proofs.«122277_j8280696947363_1_alg».proof.Proof.Spec
import proofs.«122277_j8280696947363_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadRow

open Cert.KernelIdeal Cert.KernelIdeal.Gen Idealize.ShloMosaic Idealize.ShloMosaic.ValueIdx

/-- The body's product onto the zero array, at (p, q): the sum over k of left (p, k) · right (k, q). -/
theorem mm_apply (L : FVec Ideal S400x512 .bf16) (R : FVec Ideal S512x512 .bf16) (p : Fin 400) (q : Fin 512) :
    matmul dot_S400x512_S512x512_S400x512_1_0_0_1_n_n none L R (constant (F := Ideal) S400x512 .f32 0x00000000#32) (ix2 p q)
      = ∑ k : Fin 512, L (ix2 p k) * R (ix2 k q) :=
  Cert.PlainMatmul.zero_acc_apply Facts₀.dot_S400x512_S512x512_S400x512_1_0_0_1_n_n_wf none L R p q

/-- A bias row loaded as [1, 512], flattened, kept as a row again and repeated over the rows, at (p, q): its entry q. -/
theorem bias_apply (b : FVec Ideal S1x512 .f32) (h1 : S1x512.ShapeCasts S512) (h2 : S512.ShapeCasts S1x512)
    (h3 : S1x512.Broadcasts S400x512) (p : Fin 400) (q : Fin 512) :
    broadcastTo S400x512 (shapeCast S1x512 (shapeCast S512 b h1) h2) h3 (ix2 p q) = b (ix2 (0 : Fin 1) q) :=
  (broadcastTo_1b_ab_apply _ h3 p q).trans
    ((shapeCast_a_1a_apply _ h2 (0 : Fin 1) q).trans (shapeCast_1a_a_apply b h1 q))

/-- A bias vector loaded as [512], kept as a row and repeated over the rows, at (p, q): its entry q. -/
theorem bias0_apply (b : FVec Ideal S512 .f32) (h2 : S512.ShapeCasts S1x512) (h3 : S1x512.Broadcasts S400x512)
    (p : Fin 400) (q : Fin 512) :
    broadcastTo S400x512 (shapeCast S1x512 b h2) h3 (ix2 p q) = b (ix1 q) :=
  (broadcastTo_1b_ab_apply _ h3 p q).trans (shapeCast_a_1a_apply b h2 (0 : Fin 1) q)

/-- A weight slab loaded as [1, 512, 512] and flattened to [512, 512], at (k, j): its entry (0, k, j). -/
theorem slab_apply (w : FVec Ideal S1x512x512 .bf16) (h : S1x512x512.ShapeCasts S512x512) (k j : Fin 512) :
    shapeCast S512x512 w h (ix2 k j) = w (ix3 (0 : Fin 1) k j) :=
  shapeCast_1ab_ab_apply w h k j

/-- The rectifier's zero array reads 0 everywhere. -/
theorem zero_apply (i : S400x512.Idx) :
    broadcast S400x512 (Scalar.ofBits (F := Ideal) .f32 0x00000000#32) i = (0 : EReal) :=
  Ideal.ofBits_zero_f32

/-- The first 512-wide stretch of a 1536-wide block, at (p, k): the block at column k. -/
theorem slice0_apply (a : FVec Ideal S400x1536 .f32) (h : S400x1536.Slices ![0, 0] S400x512) (p : Fin 400) (k : Fin 512) :
    extractStridedSlice S400x512 ![0, 0] a h (ix2 p k) = a (ix2 p (Cert.Spec.col 0 k)) :=
  slice2_axis1_apply 0 a h p k (Cert.Spec.col 0 k) rfl

/-- The second 512-wide stretch of a 1536-wide block, at (p, k): the block at column 512 + k. -/
theorem slice1_apply (a : FVec Ideal S400x1536 .f32) (h : S400x1536.Slices ![0, 512] S400x512) (p : Fin 400) (k : Fin 512) :
    extractStridedSlice S400x512 ![0, 512] a h (ix2 p k) = a (ix2 p (Cert.Spec.col 1 k)) :=
  slice2_axis1_apply 512 a h p k (Cert.Spec.col 1 k) rfl

/-- The third 512-wide stretch of a 1536-wide block, at (p, k): the block at column 1024 + k. -/
theorem slice2_apply (a : FVec Ideal S400x1536 .f32) (h : S400x1536.Slices ![0, 1024] S400x512) (p : Fin 400) (k : Fin 512) :
    extractStridedSlice S400x512 ![0, 1024] a h (ix2 p k) = a (ix2 p (Cert.Spec.col 2 k)) :=
  slice2_axis1_apply 1024 a h p k (Cert.Spec.col 2 k) rfl

end Cert.KernelIdeal.PayloadRow

end
-- ==== Proof.PayloadRow.lean ====
/-
  The value the kernel body stores, read at one entry, is the specification's row function.

  The body computes, on a 400-row block, the self-loop linear map of the feature rows and then, relation by relation,
  the two-layer perceptron of the feature rows plus that relation's aggregate rows, adding each to the running result.
  Read at the entry (p, q) every step is a sum, a product or a maximum of entries of the loaded blocks: a change of
  format is the identity on the extended reals, a product onto the zero array is the sum over the contracted
  coordinate, the layout operations only rename entries. What comes out is the specification's row function of row p
  of the feature block, of the three 512-wide stretches of row p of the aggregate block, and of the weights.
-/
import proofs.«122277_j8280696947363_1_alg».proof.Proof.PayloadOps

noncomputable section

open scoped BigOperators

namespace Cert.KernelIdeal.PayloadRow

open Cert.KernelIdeal Cert.KernelIdeal.Gen Idealize.ShloMosaic Idealize.ShloMosaic.ValueIdx

/-- The aggregate block passes through a cast to its own shape unchanged. -/
theorem pay2_eq (v1 : Vec Ideal S400x1536 .f32) : k0_pay2 (F := Ideal) v1 = v1 := by
  unfold k0_pay2
  exact shapeCast_self v1 _

/-- The self-loop term and the first relation, at (p, q): the linear map of row p of the features, plus the first
    relation's perceptron of that row and the first stretch of row p of the aggregates. -/
theorem pay3_apply (v0 : Vec Ideal S400x512 .f32) (v1 : Vec Ideal S400x1536 .f32) (v4 : Vec Ideal S512x512 .bf16)
    (v7 : Vec Ideal S512 .f32) (v14 : Vec Ideal S1x512x512 .bf16) (v17 : Vec Ideal S1x512 .f32)
    (v25 : Vec Ideal S1x512x512 .bf16) (v28 : Vec Ideal S1x512 .f32) (p : Fin 400) (q : Fin 512) :
    k0_pay3 (F := Ideal) v0 v1 v4 v7 v14 v17 v25 v28 (ix2 p q)
      = Cert.Spec.lin (fun k => v0 (ix2 p k)) (fun k j => v4 (ix2 k j)) (fun j => v7 (ix1 j)) q
        + Cert.Spec.mlp (fun k => v0 (ix2 p k)) (fun k => v1 (ix2 p (Cert.Spec.col 0 k)))
            (fun k j => v14 (ix3 (0 : Fin 1) k j)) (fun j => v17 (ix2 (0 : Fin 1) j))
            (fun k j => v25 (ix3 (0 : Fin 1) k j)) (fun j => v28 (ix2 (0 : Fin 1) j)) q := by
  unfold k0_pay3 Cert.Spec.mlp Cert.Spec.lin
  simp only [pay2_eq, shapeCast_self, addf_apply, maximumf_apply, truncf_apply, mm_apply, bias_apply, bias0_apply,
    shapeCast_1a_a_apply, slab_apply, zero_apply, slice0_apply]

/-- The second relation's first-layer input, at (p, k): the feature entry plus the aggregate's entry in the second
    stretch. -/
theorem pay4_apply (v0 : Vec Ideal S400x512 .f32) (v1 : Vec Ideal S400x1536 .f32) (p : Fin 400) (k : Fin 512) :
    k0_pay4 (F := Ideal) v0 v1 (ix2 p k) = v0 (ix2 p k) + v1 (ix2 p (Cert.Spec.col 1 k)) := by
  unfold k0_pay4
  simp only [pay2_eq, truncf_apply, addf_apply, slice1_apply]

/-- The running result after the second relation, at (p, q): the result before it plus the two layers applied to the
    first-layer input the step is handed. -/
theorem pay5_apply (v33 : FVec Ideal S400x512 .f32) (v36 : FVec Ideal S400x512 .bf16)
    (v37 : Vec Ideal S1x512x512 .bf16) (v40 : Vec Ideal S1x512 .f32) (v48 : Vec Ideal S1x512x512 .bf16)
    (v51 : Vec Ideal S1x512 .f32) (p : Fin 400) (q : Fin 512) :
    k0_pay5 (F := Ideal) v33 v36 v37 v40 v48 v51 (ix2 p q)
      = v33 (ix2 p q)
        + Cert.Spec.lin (fun j => max (Cert.Spec.lin (fun k => v36 (ix2 p k)) (fun k j => v37 (ix3 (0 : Fin 1) k j))
              (fun j => v40 (ix2 (0 : Fin 1) j)) j) 0)
            (fun k j => v48 (ix3 (0 : Fin 1) k j)) (fun j => v51 (ix2 (0 : Fin 1) j)) q := by
  unfold k0_pay5 Cert.Spec.lin
  simp only [addf_apply, maximumf_apply, truncf_apply, mm_apply, bias_apply, slab_apply, zero_apply]

/-- The third relation up to its second product, at (p, q): the rectified first layer of row p of the features plus the
    third stretch of row p of the aggregates, times the second layer's weights, summed. -/
theorem pay6_apply (v0 : Vec Ideal S400x512 .f32) (v2 : FVec Ideal S400x1536 .f32) (v60 : Vec Ideal S1x512x512 .bf16)
    (v63 : Vec Ideal S1x512 .f32) (v71 : Vec Ideal S1x512x512 .bf16) (p : Fin 400) (q : Fin 512) :
    k0_pay6 (F := Ideal) v0 v2 v60 v63 v71 (ix2 p q)
      = ∑ j : Fin 512, max (Cert.Spec.lin (fun k => v0 (ix2 p k) + v2 (ix2 p (Cert.Spec.col 2 k)))
            (fun k j => v60 (ix3 (0 : Fin 1) k j)) (fun j => v63 (ix2 (0 : Fin 1) j)) j) 0 * v71 (ix3 (0 : Fin 1) j q) := by
  unfold k0_pay6 Cert.Spec.lin
  simp only [addf_apply, maximumf_apply, truncf_apply, mm_apply, bias_apply, slab_apply, zero_apply, slice2_apply]

/-- The stored value, at (p, q): the running result plus the third relation's product plus its second bias. -/
theorem pay1_apply (v56 v73 : FVec Ideal S400x512 .f32) (v74 : Vec Ideal S1x512 .f32) (p : Fin 400) (q : Fin 512) :
    k0_pay1 (F := Ideal) v56 v73 v74 (ix2 p q) = v56 (ix2 p q) + (v73 (ix2 p q) + v74 (ix2 (0 : Fin 1) q)) := by
  unfold k0_pay1
  simp only [addf_apply, bias_apply]

/-- THE STORED VALUE AT (p, q) is the specification's row function of row p of the feature block, of the three
    stretches of row p of the aggregate block, and of the loaded weights. -/
theorem pay_apply
    (v0 : Vec Ideal S400x512 .f32) (v1 : Vec Ideal S400x1536 .f32) (v4 : Vec Ideal S512x512 .bf16) (v7 : Vec Ideal S512 .f32)
    (v14 v37 v60 : Vec Ideal S1x512x512 .bf16) (v17 v40 v63 : Vec Ideal S1x512 .f32)
    (v25 v48 v71 : Vec Ideal S1x512x512 .bf16) (v28 v51 v74 : Vec Ideal S1x512 .f32)
    (p : Fin 400) (q : Fin 512) :
    k0_pay1 (F := Ideal) (k0_pay5 (k0_pay3 v0 v1 v4 v7 v14 v17 v25 v28) (k0_pay4 v0 v1) v37 v40 v48 v51)
        (k0_pay6 v0 (k0_pay2 v1) v60 v63 v71) v74 (ix2 p q)
      = Cert.Spec.rowOut (fun k => v0 (ix2 p k)) (fun k j => v4 (ix2 k j)) (fun j => v7 (ix1 j))
          (fun k => v1 (ix2 p (Cert.Spec.col 0 k))) (fun k j => v14 (ix3 (0 : Fin 1) k j)) (fun j => v17 (ix2 (0 : Fin 1) j))
            (fun k j => v25 (ix3 (0 : Fin 1) k j)) (fun j => v28 (ix2 (0 : Fin 1) j))
          (fun k => v1 (ix2 p (Cert.Spec.col 1 k))) (fun k j => v37 (ix3 (0 : Fin 1) k j)) (fun j => v40 (ix2 (0 : Fin 1) j))
            (fun k j => v48 (ix3 (0 : Fin 1) k j)) (fun j => v51 (ix2 (0 : Fin 1) j))
          (fun k => v1 (ix2 p (Cert.Spec.col 2 k))) (fun k j => v60 (ix3 (0 : Fin 1) k j)) (fun j => v63 (ix2 (0 : Fin 1) j))
            (fun k j => v71 (ix3 (0 : Fin 1) k j)) (fun j => v74 (ix2 (0 : Fin 1) j))
          q := by
  rw [pay1_apply, pay5_apply, pay3_apply, pay6_apply, pay2_eq]
  simp only [pay4_apply]
  rfl

end Cert.KernelIdeal.PayloadRow

end
-- ==== Proof.KernelValue.lean ====
/-
  What the launch leaves in the result array, as one function of the argument arrays.

  Grid point `t` overwrites rows 400·t … 400·t+399 of the result with the body's arithmetic applied to what it loaded:
  the same rows of the node features and of the concatenated aggregates, and the whole weight and bias arrays (the
  three weight arrays after a change of float format, which on the extended reals changes nothing). Read at row `p` of
  the block and column `q`, that arithmetic is the specification's row function of row 400·t+p of the features and of
  the three aggregate arrays (columns 512·r … 512·r+511 of the concatenation are relation r's aggregate) — so each block
  is the corresponding block of the specification's whole-array function, the 125 blocks tile the 50000 rows, and the
  result array is that function. The three aggregate arrays are carried as the host operations' own term and never opened.
-/
import proofs.«122277_j8280696947363_1_alg».proof.Proof.KernelIdealFrame
import proofs.«122277_j8280696947363_1_alg».proof.Proof.Gen.ReferenceIdeal.Read
import proofs.«122277_j8280696947363_1_alg».proof.Proof.Spec
import proofs.«122277_j8280696947363_1_alg».proof.Proof.LibRowJoin3
import proofs.«122277_j8280696947363_1_alg».proof.Proof.PayloadRow
import Idealize.ShloMosaic.Lib.StableHlo.Run
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The aggregates and the specification at the launch contents -/

/-- Relation `r`'s aggregate array: the host operations' term of the node features, the edge list and the edge types. -/
def agg (c : Dev nD) (r : Fin 3) : (⟨2, ![50000, 512]⟩ : Shape).Idx → EReal :=
  match r with
  | 0 => Cert.ReferenceIdeal.Read.val_main_v23 (F := Ideal) (m ((c : Thread nD τ).loc main_arg0)) (m ((c : Thread nD τ).loc main_arg1)) (m ((c : Thread nD τ).loc main_arg2))
  | 1 => Cert.ReferenceIdeal.Read.val_main_v54 (F := Ideal) (m ((c : Thread nD τ).loc main_arg0)) (m ((c : Thread nD τ).loc main_arg1)) (m ((c : Thread nD τ).loc main_arg2))
  | 2 => Cert.ReferenceIdeal.Read.val_main_v85 (F := Ideal) (m ((c : Thread nD τ).loc main_arg0)) (m ((c : Thread nD τ).loc main_arg1)) (m ((c : Thread nD τ).loc main_arg2))

/-- The specification's result array at the launch contents. -/
def GK (c : Dev nD) : (⟨2, ![50000, 512]⟩ : Shape).Idx → EReal :=
  Cert.Spec.G (m ((c : Thread nD τ).loc main_arg0)) (agg m c 0) (agg m c 1) (agg m c 2) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-! ## The arrays the host operations wrote, as the launch finds them -/

/-- The concatenated aggregates. -/
theorem V_v38 (c : Dev nD) : (V m c main_v38 : S50000x1536.Idx → EReal) =
    concatenate S50000x1536 1 [⟨S50000x512, agg m c 0⟩, ⟨S50000x512, agg m c 1⟩, ⟨S50000x512, agg m c 2⟩]
      Facts₀.concatenates_S50000x512_S50000x512_S50000x512_S50000x1536_d1 := by
  dsimp only [V, hostOps0]; after_results_simp <;> rfl

/-- The self-loop weights after the change of format: unchanged on the extended reals. -/
theorem V_v39 (c : Dev nD) : (V m c main_v39 : S512x512.Idx → EReal) = m ((c : Thread nD τ).loc main_arg3) := by
  dsimp only [V, hostOps0]; after_results_simp <;> rfl
/-- The first-layer weights after the change of format. -/
theorem V_v40 (c : Dev nD) : (V m c main_v40 : S3x512x512.Idx → EReal) = m ((c : Thread nD τ).loc main_arg5) := by
  dsimp only [V, hostOps0]; after_results_simp <;> rfl
/-- The second-layer weights after the change of format. -/
theorem V_v41 (c : Dev nD) : (V m c main_v41 : S3x512x512.Idx → EReal) = m ((c : Thread nD τ).loc main_arg7) := by
  dsimp only [V, hostOps0]; after_results_simp <;> rfl

/-! ## Where each window's block sits -/

/-- The printed index maps over the 125 grid points: the three row-tiled windows are at block row `t`, column 0; the six
    weight and bias windows stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Row `p` of block `t` is row 400·t + p of the array. -/
def row (t : Fin cfg0.N) (p : Fin 400) : Fin 50000 :=
  ⟨400 * t.val + p.val, by have h : t.val < 125 := lt_of_lt_of_eq t.isLt N_0; have := p.isLt; omega⟩

theorem blk0 (c : Dev nD) (t : Fin cfg0.N) (p : Fin 400) (k : Fin 512) :
    iblk m c 0 t (ix2 p k) = m ((c : Thread nD τ).loc main_arg0) (ix2 (row t p) k) := by
  rw [← V_main_arg0 m c]
  show V m c main_arg0 (((cfg0.win 0).blk t).view.emb (ix2 p k)) = _
  obtain ⟨e0, e1, -⟩ := idx_facts t
  congr 1; funext a; apply Fin.ext
  match a with
  | ⟨0, _⟩ => show win0_0.index t (0 : Fin 2) * 400 + 1 * p.val = 400 * t.val + p.val; rw [e0]; omega
  | ⟨1, _⟩ => show win0_0.index t (1 : Fin 2) * 512 + 1 * k.val = k.val; rw [e1]; omega

theorem blk1 (c : Dev nD) (t : Fin cfg0.N) (p : Fin 400) (k : Fin 1536) :
    iblk m c 1 t (ix2 p k) = (V m c main_v38 : S50000x1536.Idx → EReal) (ix2 (row t p) k) := by
  show V m c main_v38 (((cfg0.win 1).blk t).view.emb (ix2 p k)) = _
  obtain ⟨-, -, e0, e1, -⟩ := idx_facts t
  congr 1; funext a; apply Fin.ext
  match a with
  | ⟨0, _⟩ => show win0_1.index t (0 : Fin 2) * 400 + 1 * p.val = 400 * t.val + p.val; rw [e0]; omega
  | ⟨1, _⟩ => show win0_1.index t (1 : Fin 2) * 1536 + 1 * k.val = k.val; rw [e1]; omega

theorem blk2 (c : Dev nD) (t : Fin cfg0.N) (k j : Fin 512) :
    iblk m c 2 t (ix2 k j) = m ((c : Thread nD τ).loc main_arg3) (ix2 k j) := by
  rw [← V_v39 m c]
  show V m c main_v39 (((cfg0.win 2).blk t).view.emb (ix2 k j)) = _
  obtain ⟨-, -, -, -, e0, e1, -⟩ := idx_facts t
  congr 1; funext a; apply Fin.ext
  match a with
  | ⟨0, _⟩ => show win0_2.index t (0 : Fin 2) * 512 + 1 * k.val = k.val; rw [e0]; omega
  | ⟨1, _⟩ => show win0_2.index t (1 : Fin 2) * 512 + 1 * j.val = j.val; rw [e1]; omega

theorem blk3 (c : Dev nD) (t : Fin cfg0.N) (j : Fin 512) :
    iblk m c 3 t (ix1 j) = m ((c : Thread nD τ).loc main_arg4) (ix1 j) := by
  rw [← V_main_arg4 m c]
  show V m c main_arg4 (((cfg0.win 3).blk t).view.emb (ix1 j)) = _
  obtain ⟨-, -, -, -, -, -, e0, -⟩ := idx_facts t
  congr 1; funext a; apply Fin.ext
  match a with
  | ⟨0, _⟩ => show win0_3.index t (0 : Fin 1) * 512 + 1 * j.val = j.val; rw [e0]; omega

theorem blk4 (c : Dev nD) (t : Fin cfg0.N) (r : Fin 3) (k j : Fin 512) :
    iblk m c 4 t (ix3 r k j) = m ((c : Thread nD τ).loc main_arg5) (ix3 r k j) := by
  rw [← V_v40 m c]
  show V m c main_v40 (((cfg0.win 4).blk t).view.emb (ix3 r k j)) = _
  obtain ⟨-, -, -, -, -, -, -, e0, e1, e2, -⟩ := idx_facts t
  congr 1; funext a; apply Fin.ext
  match a with
  | ⟨0, _⟩ => show win0_4.index t (0 : Fin 3) * 3 + 1 * r.val = r.val; rw [e0]; omega
  | ⟨1, _⟩ => show win0_4.index t (1 : Fin 3) * 512 + 1 * k.val = k.val; rw [e1]; omega
  | ⟨2, _⟩ => show win0_4.index t (2 : Fin 3) * 512 + 1 * j.val = j.val; rw [e2]; omega

theorem blk5 (c : Dev nD) (t : Fin cfg0.N) (r : Fin 3) (j : Fin 512) :
    iblk m c 5 t (ix2 r j) = m ((c : Thread nD τ).loc main_arg6) (ix2 r j) := by
  rw [← V_main_arg6 m c]
  show V m c main_arg6 (((cfg0.win 5).blk t).view.emb (ix2 r j)) = _
  obtain ⟨-, -, -, -, -, -, -, -, -, -, e0, e1, -⟩ := idx_facts t
  congr 1; funext a; apply Fin.ext
  match a with
  | ⟨0, _⟩ => show win0_5.index t (0 : Fin 2) * 3 + 1 * r.val = r.val; rw [e0]; omega
  | ⟨1, _⟩ => show win0_5.index t (1 : Fin 2) * 512 + 1 * j.val = j.val; rw [e1]; omega

theorem blk6 (c : Dev nD) (t : Fin cfg0.N) (r : Fin 3) (k j : Fin 512) :
    iblk m c 6 t (ix3 r k j) = m ((c : Thread nD τ).loc main_arg7) (ix3 r k j) := by
  rw [← V_v41 m c]
  show V m c main_v41 (((cfg0.win 6).blk t).view.emb (ix3 r k j)) = _
  obtain ⟨-, -, -, -, -, -, -, -, -, -, -, -, e0, e1, e2, -⟩ := idx_facts t
  congr 1; funext a; apply Fin.ext
  match a with
  | ⟨0, _⟩ => show win0_6.index t (0 : Fin 3) * 3 + 1 * r.val = r.val; rw [e0]; omega
  | ⟨1, _⟩ => show win0_6.index t (1 : Fin 3) * 512 + 1 * k.val = k.val; rw [e1]; omega
  | ⟨2, _⟩ => show win0_6.index t (2 : Fin 3) * 512 + 1 * j.val = j.val; rw [e2]; omega

theorem blk7 (c : Dev nD) (t : Fin cfg0.N) (r : Fin 3) (j : Fin 512) :
    iblk m c 7 t (ix2 r j) = m ((c : Thread nD τ).loc main_arg8) (ix2 r j) := by
  rw [← V_main_arg8 m c]
  show V m c main_arg8 (((cfg0.win 7).blk t).view.emb (ix2 r j)) = _
  obtain ⟨-, -, -, -, -, -, -, -, -, -, -, -, -, -, -, e0, e1, -⟩ := idx_facts t
  congr 1; funext a; apply Fin.ext
  match a with
  | ⟨0, _⟩ => show win0_7.index t (0 : Fin 2) * 3 + 1 * r.val = r.val; rw [e0]; omega
  | ⟨1, _⟩ => show win0_7.index t (1 : Fin 2) * 512 + 1 * j.val = j.val; rw [e1]; omega

/-! ## The body's loads, read at an entry -/

theorem hz2 : (![0, 0] : Fin 2 → Nat) = fun _ => 0 := funext fun a => by fin_cases a <;> rfl
theorem hz1 : (![0] : Fin 1 → Nat) = fun _ => 0 := funext fun a => by fin_cases a <;> rfl

/-- Stretch `r` of three rows laid end to end is the `r`-th row. -/
theorem join3_col {α : Type} (x y z : Fin 512 → α) (r : Fin 3) (k : Fin 512) :
    Cert.RowJoin3.join3 x y z 1536 rfl (Cert.Spec.col r k) = (match r with | 0 => x | 1 => y | 2 => z) k := by
  have hk := k.isLt
  unfold Cert.RowJoin3.join3
  match r with
  | 0 =>
    have h1 : (Cert.Spec.col 0 k).val < 512 := by rw [Cert.Spec.col_val]; show 512 * 0 + k.val < 512; omega
    rw [dif_pos h1]; congr 1; apply Fin.ext; rw [Cert.Spec.col_val]; show 512 * 0 + k.val = k.val; omega
  | 1 =>
    have h1 : ¬ (Cert.Spec.col 1 k).val < 512 := by rw [Cert.Spec.col_val]; show ¬ 512 * 1 + k.val < 512; omega
    have h2 : (Cert.Spec.col 1 k).val < 512 + 512 := by rw [Cert.Spec.col_val]; show 512 * 1 + k.val < 512 + 512; omega
    rw [dif_neg h1, dif_pos h2]; congr 1; apply Fin.ext; show (Cert.Spec.col 1 k).val - 512 = k.val; rw [Cert.Spec.col_val]; show 512 * 1 + k.val - 512 = k.val; omega
  | 2 =>
    have h1 : ¬ (Cert.Spec.col 2 k).val < 512 := by rw [Cert.Spec.col_val]; show ¬ 512 * 2 + k.val < 512; omega
    have h2 : ¬ (Cert.Spec.col 2 k).val < 512 + 512 := by rw [Cert.Spec.col_val]; show ¬ 512 * 2 + k.val < 512 + 512; omega
    rw [dif_neg h1, dif_neg h2]; congr 1; apply Fin.ext; show (Cert.Spec.col 2 k).val - (512 + 512) = k.val; rw [Cert.Spec.col_val]; show 512 * 2 + k.val - (512 + 512) = k.val; omega

theorem ldX (c : Dev nD) (t : Fin cfg0.N) (p : Fin 400) (k : Fin 512) :
    View.ld (iblk m c 0 t) rX (ix2 p k) = m ((c : Thread nD τ).loc main_arg0) (ix2 (row t p) k) := by
  rw [View.ld_unit_zero (S := S400x512) hz2]; exact blk0 m c t p k

theorem ldA (c : Dev nD) (t : Fin cfg0.N) (p : Fin 400) (r : Fin 3) (k : Fin 512) :
    View.ld (iblk m c 1 t) rA (ix2 p (Cert.Spec.col r k)) = agg m c r (ix2 (row t p) k) := by
  rw [View.ld_unit_zero (S := S400x1536) hz2, blk1, V_v38]
  refine (Cert.RowJoin3.concatenate_apply (a := 50000) (n := 512) (N := 1536) rfl (agg m c 0) (agg m c 1) (agg m c 2) _ (row t p) (Cert.Spec.col r k)).trans ?_
  rw [join3_col]
  match r with
  | 0 => rfl
  | 1 => rfl
  | 2 => rfl

theorem ldW (c : Dev nD) (t : Fin cfg0.N) (k j : Fin 512) :
    View.ld (iblk m c 2 t) rW (ix2 k j) = m ((c : Thread nD τ).loc main_arg3) (ix2 k j) := by
  rw [View.ld_unit_zero (S := S512x512) hz2]; exact blk2 m c t k j

theorem ldB (c : Dev nD) (t : Fin cfg0.N) (j : Fin 512) :
    View.ld (iblk m c 3 t) rB (ix1 j) = m ((c : Thread nD τ).loc main_arg4) (ix1 j) := by
  rw [View.ld_unit_zero (S := S512) hz1]; exact blk3 m c t j

theorem ldS1_0 (c : Dev nD) (t : Fin cfg0.N) (k j : Fin 512) :
    View.ld (iblk m c 4 t) rS0 (ix3 (0 : Fin 1) k j) = m ((c : Thread nD τ).loc main_arg5) (ix3 (0 : Fin 3) k j) := by
  have e : rS0.emb (ix3 (0 : Fin 1) k j) = ix3 (0 : Fin 3) k j := by
    funext a; apply Fin.ext
    match a with
    | ⟨0, _⟩ => rfl
    | ⟨1, _⟩ => show 0 + 1 * k.val = k.val; omega
    | ⟨2, _⟩ => show 0 + 1 * j.val = j.val; omega
  show iblk m c 4 t (rS0.emb (ix3 (0 : Fin 1) k j)) = _
  rw [e]; exact blk4 m c t 0 k j

theorem ldR1_0 (c : Dev nD) (t : Fin cfg0.N) (j : Fin 512) :
    View.ld (iblk m c 5 t) rR0 (ix2 (0 : Fin 1) j) = m ((c : Thread nD τ).loc main_arg6) (ix2 (0 : Fin 3) j) := by
  have e : rR0.emb (ix2 (0 : Fin 1) j) = ix2 (0 : Fin 3) j := by
    funext a; apply Fin.ext
    match a with
    | ⟨0, _⟩ => rfl
    | ⟨1, _⟩ => show 0 + 1 * j.val = j.val; omega
  show iblk m c 5 t (rR0.emb (ix2 (0 : Fin 1) j)) = _
  rw [e]; exact blk5 m c t 0 j

theorem ldS2_0 (c : Dev nD) (t : Fin cfg0.N) (k j : Fin 512) :
    View.ld (iblk m c 6 t) rS0 (ix3 (0 : Fin 1) k j) = m ((c : Thread nD τ).loc main_arg7) (ix3 (0 : Fin 3) k j) := by
  have e : rS0.emb (ix3 (0 : Fin 1) k j) = ix3 (0 : Fin 3) k j := by
    funext a; apply Fin.ext
    match a with
    | ⟨0, _⟩ => rfl
    | ⟨1, _⟩ => show 0 + 1 * k.val = k.val; omega
    | ⟨2, _⟩ => show 0 + 1 * j.val = j.val; omega
  show iblk m c 6 t (rS0.emb (ix3 (0 : Fin 1) k j)) = _
  rw [e]; exact blk6 m c t 0 k j

theorem ldR2_0 (c : Dev nD) (t : Fin cfg0.N) (j : Fin 512) :
    View.ld (iblk m c 7 t) rR0 (ix2 (0 : Fin 1) j) = m ((c : Thread nD τ).loc main_arg8) (ix2 (0 : Fin 3) j) := by
  have e : rR0.emb (ix2 (0 : Fin 1) j) = ix2 (0 : Fin 3) j := by
    funext a; apply Fin.ext
    match a with
    | ⟨0, _⟩ => rfl
    | ⟨1, _⟩ => show 0 + 1 * j.val = j.val; omega
  show iblk m c 7 t (rR0.emb (ix2 (0 : Fin 1) j)) = _
  rw [e]; exact blk7 m c t 0 j

theorem ldS1_1 (c : Dev nD) (t : Fin cfg0.N) (k j : Fin 512) :
    View.ld (iblk m c 4 t) rS1 (ix3 (0 : Fin 1) k j) = m ((c : Thread nD τ).loc main_arg5) (ix3 (1 : Fin 3) k j) := by
  have e : rS1.emb (ix3 (0 : Fin 1) k j) = ix3 (1 : Fin 3) k j := by
    funext a; apply Fin.ext
    match a with
    | ⟨0, _⟩ => rfl
    | ⟨1, _⟩ => show 0 + 1 * k.val = k.val; omega
    | ⟨2, _⟩ => show 0 + 1 * j.val = j.val; omega
  show iblk m c 4 t (rS1.emb (ix3 (0 : Fin 1) k j)) = _
  rw [e]; exact blk4 m c t 1 k j

theorem ldR1_1 (c : Dev nD) (t : Fin cfg0.N) (j : Fin 512) :
    View.ld (iblk m c 5 t) rR1 (ix2 (0 : Fin 1) j) = m ((c : Thread nD τ).loc main_arg6) (ix2 (1 : Fin 3) j) := by
  have e : rR1.emb (ix2 (0 : Fin 1) j) = ix2 (1 : Fin 3) j := by
    funext a; apply Fin.ext
    match a with
    | ⟨0, _⟩ => rfl
    | ⟨1, _⟩ => show 0 + 1 * j.val = j.val; omega
  show iblk m c 5 t (rR1.emb (ix2 (0 : Fin 1) j)) = _
  rw [e]; exact blk5 m c t 1 j

theorem ldS2_1 (c : Dev nD) (t : Fin cfg0.N) (k j : Fin 512) :
    View.ld (iblk m c 6 t) rS1 (ix3 (0 : Fin 1) k j) = m ((c : Thread nD τ).loc main_arg7) (ix3 (1 : Fin 3) k j) := by
  have e : rS1.emb (ix3 (0 : Fin 1) k j) = ix3 (1 : Fin 3) k j := by
    funext a; apply Fin.ext
    match a with
    | ⟨0, _⟩ => rfl
    | ⟨1, _⟩ => show 0 + 1 * k.val = k.val; omega
    | ⟨2, _⟩ => show 0 + 1 * j.val = j.val; omega
  show iblk m c 6 t (rS1.emb (ix3 (0 : Fin 1) k j)) = _
  rw [e]; exact blk6 m c t 1 k j

theorem ldR2_1 (c : Dev nD) (t : Fin cfg0.N) (j : Fin 512) :
    View.ld (iblk m c 7 t) rR1 (ix2 (0 : Fin 1) j) = m ((c : Thread nD τ).loc main_arg8) (ix2 (1 : Fin 3) j) := by
  have e : rR1.emb (ix2 (0 : Fin 1) j) = ix2 (1 : Fin 3) j := by
    funext a; apply Fin.ext
    match a with
    | ⟨0, _⟩ => rfl
    | ⟨1, _⟩ => show 0 + 1 * j.val = j.val; omega
  show iblk m c 7 t (rR1.emb (ix2 (0 : Fin 1) j)) = _
  rw [e]; exact blk7 m c t 1 j

theorem ldS1_2 (c : Dev nD) (t : Fin cfg0.N) (k j : Fin 512) :
    View.ld (iblk m c 4 t) rS2 (ix3 (0 : Fin 1) k j) = m ((c : Thread nD τ).loc main_arg5) (ix3 (2 : Fin 3) k j) := by
  have e : rS2.emb (ix3 (0 : Fin 1) k j) = ix3 (2 : Fin 3) k j := by
    funext a; apply Fin.ext
    match a with
    | ⟨0, _⟩ => rfl
    | ⟨1, _⟩ => show 0 + 1 * k.val = k.val; omega
    | ⟨2, _⟩ => show 0 + 1 * j.val = j.val; omega
  show iblk m c 4 t (rS2.emb (ix3 (0 : Fin 1) k j)) = _
  rw [e]; exact blk4 m c t 2 k j

theorem ldR1_2 (c : Dev nD) (t : Fin cfg0.N) (j : Fin 512) :
    View.ld (iblk m c 5 t) rR2 (ix2 (0 : Fin 1) j) = m ((c : Thread nD τ).loc main_arg6) (ix2 (2 : Fin 3) j) := by
  have e : rR2.emb (ix2 (0 : Fin 1) j) = ix2 (2 : Fin 3) j := by
    funext a; apply Fin.ext
    match a with
    | ⟨0, _⟩ => rfl
    | ⟨1, _⟩ => show 0 + 1 * j.val = j.val; omega
  show iblk m c 5 t (rR2.emb (ix2 (0 : Fin 1) j)) = _
  rw [e]; exact blk5 m c t 2 j

theorem ldS2_2 (c : Dev nD) (t : Fin cfg0.N) (k j : Fin 512) :
    View.ld (iblk m c 6 t) rS2 (ix3 (0 : Fin 1) k j) = m ((c : Thread nD τ).loc main_arg7) (ix3 (2 : Fin 3) k j) := by
  have e : rS2.emb (ix3 (0 : Fin 1) k j) = ix3 (2 : Fin 3) k j := by
    funext a; apply Fin.ext
    match a with
    | ⟨0, _⟩ => rfl
    | ⟨1, _⟩ => show 0 + 1 * k.val = k.val; omega
    | ⟨2, _⟩ => show 0 + 1 * j.val = j.val; omega
  show iblk m c 6 t (rS2.emb (ix3 (0 : Fin 1) k j)) = _
  rw [e]; exact blk6 m c t 2 k j

theorem ldR2_2 (c : Dev nD) (t : Fin cfg0.N) (j : Fin 512) :
    View.ld (iblk m c 7 t) rR2 (ix2 (0 : Fin 1) j) = m ((c : Thread nD τ).loc main_arg8) (ix2 (2 : Fin 3) j) := by
  have e : rR2.emb (ix2 (0 : Fin 1) j) = ix2 (2 : Fin 3) j := by
    funext a; apply Fin.ext
    match a with
    | ⟨0, _⟩ => rfl
    | ⟨1, _⟩ => show 0 + 1 * j.val = j.val; omega
  show iblk m c 7 t (rR2.emb (ix2 (0 : Fin 1) j)) = _
  rw [e]; exact blk7 m c t 2 j

/-! ## Each block is the specification's block -/

/-- Entry (p, q) of the output window's block at point `t` is entry (400·t + p, q) of the result array. -/
theorem emb8 (t : Fin cfg0.N) (p : Fin 400) (q : Fin 512) :
    ((cfg0.win 8).blk t).view.emb (ix2 p q) = (ix2 (row t p) q : S50000x512.Idx) := by
  obtain ⟨-, -, -, -, -, -, -, -, -, -, -, -, -, -, -, -, -, e0, e1⟩ := idx_facts t
  funext a; apply Fin.ext
  match a with
  | ⟨0, _⟩ => show win0_8.index t (0 : Fin 2) * 400 + 1 * p.val = 400 * t.val + p.val; rw [e0]; omega
  | ⟨1, _⟩ => show win0_8.index t (1 : Fin 2) * 512 + 1 * q.val = q.val; rw [e1]; omega

/-- What point `t` writes back is block `t` of the specification's array. -/
theorem flushed_eq (c : Dev nD) (t : Fin cfg0.N) :
    (dats m 0 c).flushed 8 t = ((cfg0.win 8).blk t).view.read (Elt Ideal) (GK m c) := by
  show (cfg0.win 8).cut (grid0.coords t) ((dats m 0 c).after 8 t) = _
  rw [after0_8]
  unfold out0_8
  rw [View.canon_unit_zero hz2]
  funext j
  obtain ⟨p, q, rfl⟩ : ∃ (p : Fin 400) (q : Fin 512), j = ix2 p q := ⟨j 0, j 1, eq_ix2 j⟩
  show _ = GK m c (((cfg0.win 8).blk t).view.emb (ix2 p q))
  rw [emb8 t p q]
  refine (Cert.KernelIdeal.PayloadRow.pay_apply (View.ld (iblk m c 0 t) rX) (View.ld (iblk m c 1 t) rA) (View.ld (iblk m c 2 t) rW) (View.ld (iblk m c 3 t) rB)
    (View.ld (iblk m c 4 t) rS0) (View.ld (iblk m c 4 t) rS1) (View.ld (iblk m c 4 t) rS2)
    (View.ld (iblk m c 5 t) rR0) (View.ld (iblk m c 5 t) rR1) (View.ld (iblk m c 5 t) rR2)
    (View.ld (iblk m c 6 t) rS0) (View.ld (iblk m c 6 t) rS1) (View.ld (iblk m c 6 t) rS2)
    (View.ld (iblk m c 7 t) rR0) (View.ld (iblk m c 7 t) rR1) (View.ld (iblk m c 7 t) rR2) p q).trans ?_
  unfold GK
  rw [Cert.Spec.G_ix2]
  simp only [ldX, ldA, ldW, ldB, ldS1_0, ldS1_1, ldS1_2, ldR1_0, ldR1_1, ldR1_2, ldS2_0, ldS2_1, ldS2_2, ldR2_0, ldR2_1, ldR2_2]

/-! ## The blocks tile the array -/

theorem mem_blk8 (t : Fin cfg0.N) (i : S50000x512.Idx) :
    i ∈ ((cfg0.win 8).blk t).view.set ↔ ∀ a : Fin 2, win0_8.index t a * S400x512.size a ≤ (i a).val ∧ (i a).val < win0_8.index t a * S400x512.size a + S400x512.size a := by
  show i ∈ ((View.whole main_v42).slice (win0_8.rect t)).set ↔ _
  rw [View.set_slice_whole, Rect.mem_set_unit]
  exact Iff.rfl

/-- Row `i 0` lies in block `(i 0) / 400`. -/
theorem cover8 (i : S50000x512.Idx) : ∃ t : Fin cfg0.N, (cfg0.win 8).flush t = true ∧ i ∈ ((cfg0.win 8).blk t).view.set := by
  have hi0 : (i 0).val < 50000 := (i 0).isLt
  have hi1 : (i 1).val < 512 := (i 1).isLt
  have hN : (i 0).val / 400 < cfg0.N := by rw [show cfg0.N = 125 from N_0]; omega
  refine ⟨⟨(i 0).val / 400, hN⟩, flush0_8 _, ?_⟩
  rw [mem_blk8]
  obtain ⟨-, -, -, -, -, -, -, -, -, -, -, -, -, -, -, -, -, e0, e1⟩ := idx_facts ⟨(i 0).val / 400, hN⟩
  intro a
  match a with
  | ⟨0, _⟩ =>
    show win0_8.index ⟨(i 0).val / 400, hN⟩ (0 : Fin 2) * 400 ≤ (i 0).val ∧ (i 0).val < win0_8.index ⟨(i 0).val / 400, hN⟩ (0 : Fin 2) * 400 + 400
    rw [e0]; show (i 0).val / 400 * 400 ≤ (i 0).val ∧ (i 0).val < (i 0).val / 400 * 400 + 400; omega
  | ⟨1, _⟩ =>
    show win0_8.index ⟨(i 0).val / 400, hN⟩ (1 : Fin 2) * 512 ≤ (i 1).val ∧ (i 1).val < win0_8.index ⟨(i 0).val / 400, hN⟩ (1 : Fin 2) * 512 + 512
    rw [e1]; omega

/-- The result array after the launch is the specification's array. -/
theorem final (c : Dev nD) : (dats m 0 c).arrAt 8 cfg0.N = GK m c :=
  (dats m 0 c).arrAt_eq_of_cover 8 (GK m c) (fun t _ => flushed_eq m c t) cover8

/-! ## The run, read -/

/-- Every weakly fair execution of the idealized kernel program terminates with the result array at the specification's
    function of the launch contents and the nine arguments unchanged. -/
theorem run_value : θ_run defs (onTc (τ := τ) (main (F := Ideal))) ⟨m, fun _ => 0, ρ⟩ fun r => ∀ c : Dev nD,
      r.2.mem ((c.tc : Thread nD τ).loc main_v42) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 8).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c),
      ((h c).1 5).trans (((dats m 0 c).arrAt_in 5 rfl _).trans ((A_eq m c 5).trans (V_main_arg6 m c))),
      ((h c).2 main_arg7 (Pipeline.mem_restRefs_of main_arg7 (by decide) (by decide))).trans (V_main_arg7 m c),
      ((h c).1 7).trans (((dats m 0 c).arrAt_in 7 rfl _).trans ((A_eq m c 7).trans (V_main_arg8 m c)))⟩)
    (run_main m ρ)

end Cert.KernelIdeal.KValue

end
-- ==== Proof.RefBase.lean ====
/-
  The reference's two float literals as extended reals. The factor the reference multiplies the feature rows by is
  the pattern of 1.0: sign 0, biased exponent 127, fraction 0, so (2^23 + 0) · 2^(127 − 127 − 23) = 1. Multiplying by
  it is therefore the identity on every extended real, infinite or not.
-/
import proofs.«122277_j8280696947363_1_alg».proof.Proof.Gen.ReferenceIdeal.Read
import proofs.«122277_j8280696947363_1_alg».proof.Proof.Spec

noncomputable section

namespace Cert.ReferenceIdeal.RefValue

open Cert.ReferenceIdeal Cert.ReferenceIdeal.Read Idealize.ShloMosaic Idealize.ShloMosaic.ValueIdx

/-- The single-precision pattern 0x3F800000 denotes the number one. -/
theorem one_f32 : Ideal.ofBits .f32 0x3F800000#32 = (1 : EReal) := by
  simp [Ideal.ofBits, Ideal.ieee, -EReal.coe_mul]; norm_num

/-- `Cert.Spec.lin` spelt out: the dot product of the row with column `q` of the matrix, plus the bias entry. -/
theorem lin_eq (l : Fin 512 → EReal) (w : Fin 512 → Fin 512 → EReal) (b : Fin 512 → EReal) (q : Fin 512) :
    Cert.Spec.lin l w b q = (∑ k : Fin 512, l k * w k q) + b q := rfl

end Cert.ReferenceIdeal.RefValue

end
-- ==== Proof.RefSelf.lean ====
/-
  The reference's self-loop term at one entry: entry (p, q) of the feature array times the self-loop weight matrix
  is the dot product of feature row p with column q of the matrix, and the bias vector, repeated along the 50000
  rows, contributes its entry q.
-/
import proofs.«122277_j8280696947363_1_alg».proof.Proof.RefBase

noncomputable section

namespace Cert.ReferenceIdeal.RefValue

open Cert.ReferenceIdeal Cert.ReferenceIdeal.Read Idealize.ShloMosaic Idealize.ShloMosaic.ValueIdx

/-- The self-loop linear map of feature row `p`, entry `q`. -/
theorem v14_ix (x0 : (⟨S50000x512, .f32⟩ : BufTy).Contents (Elt Ideal)) (x3 : (⟨S512x512, .f32⟩ : BufTy).Contents (Elt Ideal))
    (x4 : (⟨S512, .f32⟩ : BufTy).Contents (Elt Ideal)) (p : Fin 50000) (q : Fin 512) :
    val_main_v14 (F := Ideal) x0 x3 x4 (ix2 p q)
      = Cert.Spec.lin (fun k => x0 (ix2 p k)) (fun k j => x3 (ix2 k j)) (fun j => x4 (ix1 j)) q := by
  rw [val_main_v14_apply, val_main_v11_apply, val_main_v13_apply, val_main_v12_apply, lin_eq, Ideal.addf_def]
  have eb : idx_main_v12 (idx_main_v13 (ix2 p q)) = ix1 q :=
    funext fun a => Fin.ext (by match a with | ⟨0, _⟩ => rfl)
  rw [eb]
  refine congrArg (· + _) (Finset.sum_congr rfl fun k _ => ?_)
  have el : lidx_main_v11 (ix2 p q) k = ix2 p k :=
    funext fun a => Fin.ext (by match a with | ⟨0, _⟩ => rfl | ⟨1, _⟩ => rfl)
  have er : ridx_main_v11 (ix2 p q) k = ix2 k q :=
    funext fun a => Fin.ext (by match a with | ⟨0, _⟩ => rfl | ⟨1, _⟩ => rfl)
  rw [el, er]

end Cert.ReferenceIdeal.RefValue

end
-- ==== Proof.RefRel0.lean ====
/-
  Relation 0 of the reference, one entry at a time: the row the perceptron is applied to is the node's feature row
  (the reference's factor 1.0 dropped) plus the relation's aggregate row; the first layer is that row times slab 0 of
  the first weight array plus row 0 of the first bias array; the rectifier is the maximum with zero; the second layer
  is the same with the second weight and bias arrays. Slab 0 of a [3,512,512] array, sliced out and reshaped to
  [512,512], has entry (k, j) equal to entry (0, k, j) of the array, because (k·512 + j) / 512 = k and
  (k·512 + j) mod 512 = j for j < 512; row 0 of a [3,512] array, sliced, reshaped to a vector and repeated along the
  50000 rows, has entry (p, j) equal to entry (0, j) of the array.
-/
import proofs.«122277_j8280696947363_1_alg».proof.Proof.RefBase

noncomputable section

namespace Cert.ReferenceIdeal.RefValue

open Cert.ReferenceIdeal Cert.ReferenceIdeal.Read Idealize.ShloMosaic Idealize.ShloMosaic.ValueIdx

/-- The perceptron's input row: the feature entry plus the aggregate entry. -/
theorem v26_ix (x0 : (⟨S50000x512, .f32⟩ : BufTy).Contents (Elt Ideal)) (x1 : (⟨S2x156000, .i32⟩ : BufTy).Contents (Elt Ideal))
    (x2 : (⟨S156000, .i32⟩ : BufTy).Contents (Elt Ideal)) (p : Fin 50000) (k : Fin 512) :
    val_main_v26 (F := Ideal) x0 x1 x2 (ix2 p k) = x0 (ix2 p k) + val_main_v23 (F := Ideal) x0 x1 x2 (ix2 p k) := by
  rw [val_main_v26_apply, val_main_v25_apply, val_main_v24_apply, val_main_cst_2_apply]
  simp only [Ideal.addf_def, Ideal.mulf_def, Ideal.ofBits_def, one_f32, one_mul]

/-- Slab 0 of the first weight array as a [512,512] matrix. -/
theorem v28_ix (x5 : (⟨S3x512x512, .f32⟩ : BufTy).Contents (Elt Ideal)) (k j : Fin 512) :
    val_main_v28 (F := Ideal) x5 (ix2 k j) = x5 (ix3 (0 : Fin 3) k j) := by
  rw [val_main_v28_apply, val_main_v27_apply]
  refine congrArg x5 (funext fun a => Fin.ext ?_)
  have hk := k.isLt
  have hj := j.isLt
  match a with
  | ⟨0, _⟩ => rfl
  | ⟨1, _⟩ => show (k.val * 512 + j.val) / 512 % 512 = k.val; omega
  | ⟨2, _⟩ => show (k.val * 512 + j.val) % 512 = j.val; omega

/-- Row 0 of the first bias array repeated along the rows. -/
theorem v33_ix (x6 : (⟨S3x512, .f32⟩ : BufTy).Contents (Elt Ideal)) (p : Fin 50000) (j : Fin 512) :
    val_main_v33 (F := Ideal) x6 (ix2 p j) = x6 (ix2 (0 : Fin 3) j) := by
  rw [val_main_v33_apply, val_main_v32_apply, val_main_v31_apply, val_main_v30_apply]
  refine congrArg x6 (funext fun a => Fin.ext ?_)
  have hj := j.isLt
  match a with
  | ⟨0, _⟩ => rfl
  | ⟨1, _⟩ => show j.val % 512 = j.val; omega

/-- The first layer before the rectifier. -/
theorem v34_ix (x0 : (⟨S50000x512, .f32⟩ : BufTy).Contents (Elt Ideal)) (x1 : (⟨S2x156000, .i32⟩ : BufTy).Contents (Elt Ideal))
    (x2 : (⟨S156000, .i32⟩ : BufTy).Contents (Elt Ideal)) (x5 : (⟨S3x512x512, .f32⟩ : BufTy).Contents (Elt Ideal))
    (x6 : (⟨S3x512, .f32⟩ : BufTy).Contents (Elt Ideal)) (p : Fin 50000) (j : Fin 512) :
    val_main_v34 (F := Ideal) x0 x1 x2 x5 x6 (ix2 p j)
      = Cert.Spec.lin (fun k => x0 (ix2 p k) + val_main_v23 (F := Ideal) x0 x1 x2 (ix2 p k))
          (fun k j => x5 (ix3 (0 : Fin 3) k j)) (fun j => x6 (ix2 (0 : Fin 3) j)) j := by
  rw [val_main_v34_apply, val_main_v29_apply, v33_ix, lin_eq, Ideal.addf_def]
  refine congrArg (· + _) (Finset.sum_congr rfl fun k _ => ?_)
  have el : lidx_main_v29 (ix2 p j) k = ix2 p k :=
    funext fun a => Fin.ext (by match a with | ⟨0, _⟩ => rfl | ⟨1, _⟩ => rfl)
  have er : ridx_main_v29 (ix2 p j) k = ix2 k j :=
    funext fun a => Fin.ext (by match a with | ⟨0, _⟩ => rfl | ⟨1, _⟩ => rfl)
  rw [el, er, v26_ix, v28_ix]

/-- The first layer after the rectifier: the maximum with zero. -/
theorem v36_ix (x0 : (⟨S50000x512, .f32⟩ : BufTy).Contents (Elt Ideal)) (x1 : (⟨S2x156000, .i32⟩ : BufTy).Contents (Elt Ideal))
    (x2 : (⟨S156000, .i32⟩ : BufTy).Contents (Elt Ideal)) (x5 : (⟨S3x512x512, .f32⟩ : BufTy).Contents (Elt Ideal))
    (x6 : (⟨S3x512, .f32⟩ : BufTy).Contents (Elt Ideal)) (p : Fin 50000) (j : Fin 512) :
    val_main_v36 (F := Ideal) x0 x1 x2 x5 x6 (ix2 p j)
      = max (Cert.Spec.lin (fun k => x0 (ix2 p k) + val_main_v23 (F := Ideal) x0 x1 x2 (ix2 p k))
          (fun k j => x5 (ix3 (0 : Fin 3) k j)) (fun j => x6 (ix2 (0 : Fin 3) j)) j) 0 := by
  rw [val_main_v36_apply, val_main_v35_apply, val_main_cst_3_apply, v34_ix]
  simp only [Ideal.maximumf_def, Ideal.ofBits_def, Ideal.ofBits_zero_f32]

/-- Slab 0 of the second weight array as a [512,512] matrix. -/
theorem v38_ix (x7 : (⟨S3x512x512, .f32⟩ : BufTy).Contents (Elt Ideal)) (k j : Fin 512) :
    val_main_v38 (F := Ideal) x7 (ix2 k j) = x7 (ix3 (0 : Fin 3) k j) := by
  rw [val_main_v38_apply, val_main_v37_apply]
  refine congrArg x7 (funext fun a => Fin.ext ?_)
  have hk := k.isLt
  have hj := j.isLt
  match a with
  | ⟨0, _⟩ => rfl
  | ⟨1, _⟩ => show (k.val * 512 + j.val) / 512 % 512 = k.val; omega
  | ⟨2, _⟩ => show (k.val * 512 + j.val) % 512 = j.val; omega

/-- Row 0 of the second bias array repeated along the rows. -/
theorem v43_ix (x8 : (⟨S3x512, .f32⟩ : BufTy).Contents (Elt Ideal)) (p : Fin 50000) (j : Fin 512) :
    val_main_v43 (F := Ideal) x8 (ix2 p j) = x8 (ix2 (0 : Fin 3) j) := by
  rw [val_main_v43_apply, val_main_v42_apply, val_main_v41_apply, val_main_v40_apply]
  refine congrArg x8 (funext fun a => Fin.ext ?_)
  have hj := j.isLt
  match a with
  | ⟨0, _⟩ => rfl
  | ⟨1, _⟩ => show j.val % 512 = j.val; omega

/-- Relation 0's whole perceptron at one entry. -/
theorem v44_ix (x0 : (⟨S50000x512, .f32⟩ : BufTy).Contents (Elt Ideal)) (x1 : (⟨S2x156000, .i32⟩ : BufTy).Contents (Elt Ideal))
    (x2 : (⟨S156000, .i32⟩ : BufTy).Contents (Elt Ideal)) (x5 : (⟨S3x512x512, .f32⟩ : BufTy).Contents (Elt Ideal))
    (x6 : (⟨S3x512, .f32⟩ : BufTy).Contents (Elt Ideal)) (x7 : (⟨S3x512x512, .f32⟩ : BufTy).Contents (Elt Ideal))
    (x8 : (⟨S3x512, .f32⟩ : BufTy).Contents (Elt Ideal)) (p : Fin 50000) (q : Fin 512) :
    val_main_v44 (F := Ideal) x0 x1 x2 x5 x6 x7 x8 (ix2 p q)
      = Cert.Spec.mlp (fun k => x0 (ix2 p k)) (fun k => val_main_v23 (F := Ideal) x0 x1 x2 (ix2 p k))
          (fun k j => x5 (ix3 (0 : Fin 3) k j)) (fun j => x6 (ix2 (0 : Fin 3) j))
          (fun k j => x7 (ix3 (0 : Fin 3) k j)) (fun j => x8 (ix2 (0 : Fin 3) j)) q := by
  rw [val_main_v44_apply, val_main_v39_apply, v43_ix, Cert.Spec.mlp, lin_eq, Ideal.addf_def]
  refine congrArg (· + _) (Finset.sum_congr rfl fun k _ => ?_)
  have el : lidx_main_v39 (ix2 p q) k = ix2 p k :=
    funext fun a => Fin.ext (by match a with | ⟨0, _⟩ => rfl | ⟨1, _⟩ => rfl)
  have er : ridx_main_v39 (ix2 p q) k = ix2 k q :=
    funext fun a => Fin.ext (by match a with | ⟨0, _⟩ => rfl | ⟨1, _⟩ => rfl)
  rw [el, er, v36_ix, v38_ix]

end Cert.ReferenceIdeal.RefValue

end
-- ==== Proof.RefRel1.lean ====
/-
  Relation 1 of the reference, one entry at a time: the row the perceptron is applied to is the node's feature row
  (the reference's factor 1.0 dropped) plus the relation's aggregate row; the first layer is that row times slab 1 of
  the first weight array plus row 1 of the first bias array; the rectifier is the maximum with zero; the second layer
  is the same with the second weight and bias arrays. Slab 1 of a [3,512,512] array, sliced out and reshaped to
  [512,512], has entry (k, j) equal to entry (1, k, j) of the array, because (k·512 + j) / 512 = k and
  (k·512 + j) mod 512 = j for j < 512; row 1 of a [3,512] array, sliced, reshaped to a vector and repeated along the
  50000 rows, has entry (p, j) equal to entry (1, j) of the array.
-/
import proofs.«122277_j8280696947363_1_alg».proof.Proof.RefBase

noncomputable section

namespace Cert.ReferenceIdeal.RefValue

open Cert.ReferenceIdeal Cert.ReferenceIdeal.Read Idealize.ShloMosaic Idealize.ShloMosaic.ValueIdx

/-- The perceptron's input row: the feature entry plus the aggregate entry. -/
theorem v57_ix (x0 : (⟨S50000x512, .f32⟩ : BufTy).Contents (Elt Ideal)) (x1 : (⟨S2x156000, .i32⟩ : BufTy).Contents (Elt Ideal))
    (x2 : (⟨S156000, .i32⟩ : BufTy).Contents (Elt Ideal)) (p : Fin 50000) (k : Fin 512) :
    val_main_v57 (F := Ideal) x0 x1 x2 (ix2 p k) = x0 (ix2 p k) + val_main_v54 (F := Ideal) x0 x1 x2 (ix2 p k) := by
  rw [val_main_v57_apply, val_main_v56_apply, val_main_v55_apply, val_main_cst_6_apply]
  simp only [Ideal.addf_def, Ideal.mulf_def, Ideal.ofBits_def, one_f32, one_mul]

/-- Slab 1 of the first weight array as a [512,512] matrix. -/
theorem v59_ix (x5 : (⟨S3x512x512, .f32⟩ : BufTy).Contents (Elt Ideal)) (k j : Fin 512) :
    val_main_v59 (F := Ideal) x5 (ix2 k j) = x5 (ix3 (1 : Fin 3) k j) := by
  rw [val_main_v59_apply, val_main_v58_apply]
  refine congrArg x5 (funext fun a => Fin.ext ?_)
  have hk := k.isLt
  have hj := j.isLt
  match a with
  | ⟨0, _⟩ => rfl
  | ⟨1, _⟩ => show (k.val * 512 + j.val) / 512 % 512 = k.val; omega
  | ⟨2, _⟩ => show (k.val * 512 + j.val) % 512 = j.val; omega

/-- Row 1 of the first bias array repeated along the rows. -/
theorem v64_ix (x6 : (⟨S3x512, .f32⟩ : BufTy).Contents (Elt Ideal)) (p : Fin 50000) (j : Fin 512) :
    val_main_v64 (F := Ideal) x6 (ix2 p j) = x6 (ix2 (1 : Fin 3) j) := by
  rw [val_main_v64_apply, val_main_v63_apply, val_main_v62_apply, val_main_v61_apply]
  refine congrArg x6 (funext fun a => Fin.ext ?_)
  have hj := j.isLt
  match a with
  | ⟨0, _⟩ => rfl
  | ⟨1, _⟩ => show j.val % 512 = j.val; omega

/-- The first layer before the rectifier. -/
theorem v65_ix (x0 : (⟨S50000x512, .f32⟩ : BufTy).Contents (Elt Ideal)) (x1 : (⟨S2x156000, .i32⟩ : BufTy).Contents (Elt Ideal))
    (x2 : (⟨S156000, .i32⟩ : BufTy).Contents (Elt Ideal)) (x5 : (⟨S3x512x512, .f32⟩ : BufTy).Contents (Elt Ideal))
    (x6 : (⟨S3x512, .f32⟩ : BufTy).Contents (Elt Ideal)) (p : Fin 50000) (j : Fin 512) :
    val_main_v65 (F := Ideal) x0 x1 x2 x5 x6 (ix2 p j)
      = Cert.Spec.lin (fun k => x0 (ix2 p k) + val_main_v54 (F := Ideal) x0 x1 x2 (ix2 p k))
          (fun k j => x5 (ix3 (1 : Fin 3) k j)) (fun j => x6 (ix2 (1 : Fin 3) j)) j := by
  rw [val_main_v65_apply, val_main_v60_apply, v64_ix, lin_eq, Ideal.addf_def]
  refine congrArg (· + _) (Finset.sum_congr rfl fun k _ => ?_)
  have el : lidx_main_v60 (ix2 p j) k = ix2 p k :=
    funext fun a => Fin.ext (by match a with | ⟨0, _⟩ => rfl | ⟨1, _⟩ => rfl)
  have er : ridx_main_v60 (ix2 p j) k = ix2 k j :=
    funext fun a => Fin.ext (by match a with | ⟨0, _⟩ => rfl | ⟨1, _⟩ => rfl)
  rw [el, er, v57_ix, v59_ix]

/-- The first layer after the rectifier: the maximum with zero. -/
theorem v67_ix (x0 : (⟨S50000x512, .f32⟩ : BufTy).Contents (Elt Ideal)) (x1 : (⟨S2x156000, .i32⟩ : BufTy).Contents (Elt Ideal))
    (x2 : (⟨S156000, .i32⟩ : BufTy).Contents (Elt Ideal)) (x5 : (⟨S3x512x512, .f32⟩ : BufTy).Contents (Elt Ideal))
    (x6 : (⟨S3x512, .f32⟩ : BufTy).Contents (Elt Ideal)) (p : Fin 50000) (j : Fin 512) :
    val_main_v67 (F := Ideal) x0 x1 x2 x5 x6 (ix2 p j)
      = max (Cert.Spec.lin (fun k => x0 (ix2 p k) + val_main_v54 (F := Ideal) x0 x1 x2 (ix2 p k))
          (fun k j => x5 (ix3 (1 : Fin 3) k j)) (fun j => x6 (ix2 (1 : Fin 3) j)) j) 0 := by
  rw [val_main_v67_apply, val_main_v66_apply, val_main_cst_7_apply, v65_ix]
  simp only [Ideal.maximumf_def, Ideal.ofBits_def, Ideal.ofBits_zero_f32]

/-- Slab 1 of the second weight array as a [512,512] matrix. -/
theorem v69_ix (x7 : (⟨S3x512x512, .f32⟩ : BufTy).Contents (Elt Ideal)) (k j : Fin 512) :
    val_main_v69 (F := Ideal) x7 (ix2 k j) = x7 (ix3 (1 : Fin 3) k j) := by
  rw [val_main_v69_apply, val_main_v68_apply]
  refine congrArg x7 (funext fun a => Fin.ext ?_)
  have hk := k.isLt
  have hj := j.isLt
  match a with
  | ⟨0, _⟩ => rfl
  | ⟨1, _⟩ => show (k.val * 512 + j.val) / 512 % 512 = k.val; omega
  | ⟨2, _⟩ => show (k.val * 512 + j.val) % 512 = j.val; omega

/-- Row 1 of the second bias array repeated along the rows. -/
theorem v74_ix (x8 : (⟨S3x512, .f32⟩ : BufTy).Contents (Elt Ideal)) (p : Fin 50000) (j : Fin 512) :
    val_main_v74 (F := Ideal) x8 (ix2 p j) = x8 (ix2 (1 : Fin 3) j) := by
  rw [val_main_v74_apply, val_main_v73_apply, val_main_v72_apply, val_main_v71_apply]
  refine congrArg x8 (funext fun a => Fin.ext ?_)
  have hj := j.isLt
  match a with
  | ⟨0, _⟩ => rfl
  | ⟨1, _⟩ => show j.val % 512 = j.val; omega

/-- Relation 1's whole perceptron at one entry. -/
theorem v75_ix (x0 : (⟨S50000x512, .f32⟩ : BufTy).Contents (Elt Ideal)) (x1 : (⟨S2x156000, .i32⟩ : BufTy).Contents (Elt Ideal))
    (x2 : (⟨S156000, .i32⟩ : BufTy).Contents (Elt Ideal)) (x5 : (⟨S3x512x512, .f32⟩ : BufTy).Contents (Elt Ideal))
    (x6 : (⟨S3x512, .f32⟩ : BufTy).Contents (Elt Ideal)) (x7 : (⟨S3x512x512, .f32⟩ : BufTy).Contents (Elt Ideal))
    (x8 : (⟨S3x512, .f32⟩ : BufTy).Contents (Elt Ideal)) (p : Fin 50000) (q : Fin 512) :
    val_main_v75 (F := Ideal) x0 x1 x2 x5 x6 x7 x8 (ix2 p q)
      = Cert.Spec.mlp (fun k => x0 (ix2 p k)) (fun k => val_main_v54 (F := Ideal) x0 x1 x2 (ix2 p k))
          (fun k j => x5 (ix3 (1 : Fin 3) k j)) (fun j => x6 (ix2 (1 : Fin 3) j))
          (fun k j => x7 (ix3 (1 : Fin 3) k j)) (fun j => x8 (ix2 (1 : Fin 3) j)) q := by
  rw [val_main_v75_apply, val_main_v70_apply, v74_ix, Cert.Spec.mlp, lin_eq, Ideal.addf_def]
  refine congrArg (· + _) (Finset.sum_congr rfl fun k _ => ?_)
  have el : lidx_main_v70 (ix2 p q) k = ix2 p k :=
    funext fun a => Fin.ext (by match a with | ⟨0, _⟩ => rfl | ⟨1, _⟩ => rfl)
  have er : ridx_main_v70 (ix2 p q) k = ix2 k q :=
    funext fun a => Fin.ext (by match a with | ⟨0, _⟩ => rfl | ⟨1, _⟩ => rfl)
  rw [el, er, v67_ix, v69_ix]

end Cert.ReferenceIdeal.RefValue

end
-- ==== Proof.RefRel2.lean ====
/-
  Relation 2 of the reference, one entry at a time: the row the perceptron is applied to is the node's feature row
  (the reference's factor 1.0 dropped) plus the relation's aggregate row; the first layer is that row times slab 2 of
  the first weight array plus row 2 of the first bias array; the rectifier is the maximum with zero; the second layer
  is the same with the second weight and bias arrays. Slab 2 of a [3,512,512] array, sliced out and reshaped to
  [512,512], has entry (k, j) equal to entry (2, k, j) of the array, because (k·512 + j) / 512 = k and
  (k·512 + j) mod 512 = j for j < 512; row 2 of a [3,512] array, sliced, reshaped to a vector and repeated along the
  50000 rows, has entry (p, j) equal to entry (2, j) of the array.
-/
import proofs.«122277_j8280696947363_1_alg».proof.Proof.RefBase

noncomputable section

namespace Cert.ReferenceIdeal.RefValue

open Cert.ReferenceIdeal Cert.ReferenceIdeal.Read Idealize.ShloMosaic Idealize.ShloMosaic.ValueIdx

/-- The perceptron's input row: the feature entry plus the aggregate entry. -/
theorem v88_ix (x0 : (⟨S50000x512, .f32⟩ : BufTy).Contents (Elt Ideal)) (x1 : (⟨S2x156000, .i32⟩ : BufTy).Contents (Elt Ideal))
    (x2 : (⟨S156000, .i32⟩ : BufTy).Contents (Elt Ideal)) (p : Fin 50000) (k : Fin 512) :
    val_main_v88 (F := Ideal) x0 x1 x2 (ix2 p k) = x0 (ix2 p k) + val_main_v85 (F := Ideal) x0 x1 x2 (ix2 p k) := by
  rw [val_main_v88_apply, val_main_v87_apply, val_main_v86_apply, val_main_cst_10_apply]
  simp only [Ideal.addf_def, Ideal.mulf_def, Ideal.ofBits_def, one_f32, one_mul]

/-- Slab 2 of the first weight array as a [512,512] matrix. -/
theorem v90_ix (x5 : (⟨S3x512x512, .f32⟩ : BufTy).Contents (Elt Ideal)) (k j : Fin 512) :
    val_main_v90 (F := Ideal) x5 (ix2 k j) = x5 (ix3 (2 : Fin 3) k j) := by
  rw [val_main_v90_apply, val_main_v89_apply]
  refine congrArg x5 (funext fun a => Fin.ext ?_)
  have hk := k.isLt
  have hj := j.isLt
  match a with
  | ⟨0, _⟩ => rfl
  | ⟨1, _⟩ => show (k.val * 512 + j.val) / 512 % 512 = k.val; omega
  | ⟨2, _⟩ => show (k.val * 512 + j.val) % 512 = j.val; omega

/-- Row 2 of the first bias array repeated along the rows. -/
theorem v95_ix (x6 : (⟨S3x512, .f32⟩ : BufTy).Contents (Elt Ideal)) (p : Fin 50000) (j : Fin 512) :
    val_main_v95 (F := Ideal) x6 (ix2 p j) = x6 (ix2 (2 : Fin 3) j) := by
  rw [val_main_v95_apply, val_main_v94_apply, val_main_v93_apply, val_main_v92_apply]
  refine congrArg x6 (funext fun a => Fin.ext ?_)
  have hj := j.isLt
  match a with
  | ⟨0, _⟩ => rfl
  | ⟨1, _⟩ => show j.val % 512 = j.val; omega

/-- The first layer before the rectifier. -/
theorem v96_ix (x0 : (⟨S50000x512, .f32⟩ : BufTy).Contents (Elt Ideal)) (x1 : (⟨S2x156000, .i32⟩ : BufTy).Contents (Elt Ideal))
    (x2 : (⟨S156000, .i32⟩ : BufTy).Contents (Elt Ideal)) (x5 : (⟨S3x512x512, .f32⟩ : BufTy).Contents (Elt Ideal))
    (x6 : (⟨S3x512, .f32⟩ : BufTy).Contents (Elt Ideal)) (p : Fin 50000) (j : Fin 512) :
    val_main_v96 (F := Ideal) x0 x1 x2 x5 x6 (ix2 p j)
      = Cert.Spec.lin (fun k => x0 (ix2 p k) + val_main_v85 (F := Ideal) x0 x1 x2 (ix2 p k))
          (fun k j => x5 (ix3 (2 : Fin 3) k j)) (fun j => x6 (ix2 (2 : Fin 3) j)) j := by
  rw [val_main_v96_apply, val_main_v91_apply, v95_ix, lin_eq, Ideal.addf_def]
  refine congrArg (· + _) (Finset.sum_congr rfl fun k _ => ?_)
  have el : lidx_main_v91 (ix2 p j) k = ix2 p k :=
    funext fun a => Fin.ext (by match a with | ⟨0, _⟩ => rfl | ⟨1, _⟩ => rfl)
  have er : ridx_main_v91 (ix2 p j) k = ix2 k j :=
    funext fun a => Fin.ext (by match a with | ⟨0, _⟩ => rfl | ⟨1, _⟩ => rfl)
  rw [el, er, v88_ix, v90_ix]

/-- The first layer after the rectifier: the maximum with zero. -/
theorem v98_ix (x0 : (⟨S50000x512, .f32⟩ : BufTy).Contents (Elt Ideal)) (x1 : (⟨S2x156000, .i32⟩ : BufTy).Contents (Elt Ideal))
    (x2 : (⟨S156000, .i32⟩ : BufTy).Contents (Elt Ideal)) (x5 : (⟨S3x512x512, .f32⟩ : BufTy).Contents (Elt Ideal))
    (x6 : (⟨S3x512, .f32⟩ : BufTy).Contents (Elt Ideal)) (p : Fin 50000) (j : Fin 512) :
    val_main_v98 (F := Ideal) x0 x1 x2 x5 x6 (ix2 p j)
      = max (Cert.Spec.lin (fun k => x0 (ix2 p k) + val_main_v85 (F := Ideal) x0 x1 x2 (ix2 p k))
          (fun k j => x5 (ix3 (2 : Fin 3) k j)) (fun j => x6 (ix2 (2 : Fin 3) j)) j) 0 := by
  rw [val_main_v98_apply, val_main_v97_apply, val_main_cst_11_apply, v96_ix]
  simp only [Ideal.maximumf_def, Ideal.ofBits_def, Ideal.ofBits_zero_f32]

/-- Slab 2 of the second weight array as a [512,512] matrix. -/
theorem v100_ix (x7 : (⟨S3x512x512, .f32⟩ : BufTy).Contents (Elt Ideal)) (k j : Fin 512) :
    val_main_v100 (F := Ideal) x7 (ix2 k j) = x7 (ix3 (2 : Fin 3) k j) := by
  rw [val_main_v100_apply, val_main_v99_apply]
  refine congrArg x7 (funext fun a => Fin.ext ?_)
  have hk := k.isLt
  have hj := j.isLt
  match a with
  | ⟨0, _⟩ => rfl
  | ⟨1, _⟩ => show (k.val * 512 + j.val) / 512 % 512 = k.val; omega
  | ⟨2, _⟩ => show (k.val * 512 + j.val) % 512 = j.val; omega

/-- Row 2 of the second bias array repeated along the rows. -/
theorem v105_ix (x8 : (⟨S3x512, .f32⟩ : BufTy).Contents (Elt Ideal)) (p : Fin 50000) (j : Fin 512) :
    val_main_v105 (F := Ideal) x8 (ix2 p j) = x8 (ix2 (2 : Fin 3) j) := by
  rw [val_main_v105_apply, val_main_v104_apply, val_main_v103_apply, val_main_v102_apply]
  refine congrArg x8 (funext fun a => Fin.ext ?_)
  have hj := j.isLt
  match a with
  | ⟨0, _⟩ => rfl
  | ⟨1, _⟩ => show j.val % 512 = j.val; omega

/-- Relation 2's whole perceptron at one entry. -/
theorem v106_ix (x0 : (⟨S50000x512, .f32⟩ : BufTy).Contents (Elt Ideal)) (x1 : (⟨S2x156000, .i32⟩ : BufTy).Contents (Elt Ideal))
    (x2 : (⟨S156000, .i32⟩ : BufTy).Contents (Elt Ideal)) (x5 : (⟨S3x512x512, .f32⟩ : BufTy).Contents (Elt Ideal))
    (x6 : (⟨S3x512, .f32⟩ : BufTy).Contents (Elt Ideal)) (x7 : (⟨S3x512x512, .f32⟩ : BufTy).Contents (Elt Ideal))
    (x8 : (⟨S3x512, .f32⟩ : BufTy).Contents (Elt Ideal)) (p : Fin 50000) (q : Fin 512) :
    val_main_v106 (F := Ideal) x0 x1 x2 x5 x6 x7 x8 (ix2 p q)
      = Cert.Spec.mlp (fun k => x0 (ix2 p k)) (fun k => val_main_v85 (F := Ideal) x0 x1 x2 (ix2 p k))
          (fun k j => x5 (ix3 (2 : Fin 3) k j)) (fun j => x6 (ix2 (2 : Fin 3) j))
          (fun k j => x7 (ix3 (2 : Fin 3) k j)) (fun j => x8 (ix2 (2 : Fin 3) j)) q := by
  rw [val_main_v106_apply, val_main_v101_apply, v105_ix, Cert.Spec.mlp, lin_eq, Ideal.addf_def]
  refine congrArg (· + _) (Finset.sum_congr rfl fun k _ => ?_)
  have el : lidx_main_v101 (ix2 p q) k = ix2 p k :=
    funext fun a => Fin.ext (by match a with | ⟨0, _⟩ => rfl | ⟨1, _⟩ => rfl)
  have er : ridx_main_v101 (ix2 p q) k = ix2 k q :=
    funext fun a => Fin.ext (by match a with | ⟨0, _⟩ => rfl | ⟨1, _⟩ => rfl)
  rw [el, er, v98_ix, v100_ix]

end Cert.ReferenceIdeal.RefValue

end
-- ==== Proof.RefValue.lean ====
/-
  The reference's result array as the specification's function of its argument arrays.

  Entry (p, q) of the result is three additions deep: ((self-loop + relation 0) + relation 1) + relation 2, each
  summand read at the same entry. The self-loop summand is the linear map of feature row p; relation r's summand is
  its two-layer perceptron on feature row p plus aggregate row p of relation r, with slab r of the weight arrays and
  row r of the bias arrays. That is the specification's row function entry by entry. The three aggregate arrays are
  carried as they stand: nothing here looks inside them.
-/
import proofs.«122277_j8280696947363_1_alg».proof.Proof.Gen.ReferenceIdeal.Read
import proofs.«122277_j8280696947363_1_alg».proof.Proof.Spec
import proofs.«122277_j8280696947363_1_alg».proof.Proof.RefSelf
import proofs.«122277_j8280696947363_1_alg».proof.Proof.RefRel0
import proofs.«122277_j8280696947363_1_alg».proof.Proof.RefRel1
import proofs.«122277_j8280696947363_1_alg».proof.Proof.RefRel2

noncomputable section

open Cert.ReferenceIdeal Idealize.ShloMosaic in
theorem Cert.ReferenceIdeal.RefValue.ref_eq
    (x0 : (⟨S50000x512, .f32⟩ : BufTy).Contents (Elt Ideal)) (x1 : (⟨S2x156000, .i32⟩ : BufTy).Contents (Elt Ideal))
    (x2 : (⟨S156000, .i32⟩ : BufTy).Contents (Elt Ideal)) (x3 : (⟨S512x512, .f32⟩ : BufTy).Contents (Elt Ideal))
    (x4 : (⟨S512, .f32⟩ : BufTy).Contents (Elt Ideal)) (x5 : (⟨S3x512x512, .f32⟩ : BufTy).Contents (Elt Ideal))
    (x6 : (⟨S3x512, .f32⟩ : BufTy).Contents (Elt Ideal)) (x7 : (⟨S3x512x512, .f32⟩ : BufTy).Contents (Elt Ideal))
    (x8 : (⟨S3x512, .f32⟩ : BufTy).Contents (Elt Ideal)) :
    Cert.ReferenceIdeal.Read.val_main_v107 (F := Ideal) x0 x1 x2 x3 x4 x5 x6 x7 x8
      = Cert.Spec.G x0 (Cert.ReferenceIdeal.Read.val_main_v23 (F := Ideal) x0 x1 x2)
          (Cert.ReferenceIdeal.Read.val_main_v54 (F := Ideal) x0 x1 x2)
          (Cert.ReferenceIdeal.Read.val_main_v85 (F := Ideal) x0 x1 x2) x3 x4 x5 x6 x7 x8 := by
  funext i
  obtain ⟨p, q, rfl⟩ : ∃ (p : Fin 50000) (q : Fin 512), i = ValueIdx.ix2 p q := ⟨i 0, i 1, ValueIdx.eq_ix2 i⟩
  refine Eq.trans ?_ (Cert.Spec.G_ix2 x0 _ _ _ x3 x4 x5 x6 x7 x8 p q).symm
  rw [Cert.Spec.rowOut, Read.val_main_v107_apply, Read.val_main_v76_apply, Read.val_main_v45_apply,
    RefValue.v14_ix, RefValue.v44_ix, RefValue.v75_ix, RefValue.v106_ix]
  simp only [Ideal.addf_def]

end
-- ==== Proof.lean ====
/-
  The certificate's five claims.

  Both programs compute, for every node, the self-loop linear map of its feature row plus, for each of the three
  relations, a two-layer perceptron of the feature row added to that relation's aggregate of neighbour rows. The kernel
  program forms the three aggregates on the host, lays them side by side in one array, and evaluates everything else
  in one launch over blocks of 400 rows, with the weights carried in a narrower float format; the reference evaluates
  the same expression array by array. On the extended reals a change of float format is the identity, a matrix
  product into a zero accumulator is the plain sum of products, and the reference's factor 1.0 is the unit of
  multiplication, so the two result arrays are one function of the arguments — the specification's `G` — with the
  three aggregates the same host term on both sides. No step uses a finite value, so the precondition is not opened.

  The frames: the two kernel programs run their host operations, which write only their own buffers, then the launch,
  whose input windows are never written back; the reference is host operations only. The idealization rewrote nothing,
  so its faithfulness claim is empty.
-/
import proofs.«122277_j8280696947363_1_alg».proof.Defs
import proofs.«122277_j8280696947363_1_alg».proof.Proof.Gen.Kernel
import proofs.«122277_j8280696947363_1_alg».proof.Proof.Gen.KernelIdeal
import proofs.«122277_j8280696947363_1_alg».proof.Proof.Gen.ReferenceIdeal
import proofs.«122277_j8280696947363_1_alg».proof.Proof.Gen.Pre_finite_inputs
import proofs.«122277_j8280696947363_1_alg».proof.Proof.Gen.ReferenceIdeal.Run
import proofs.«122277_j8280696947363_1_alg».proof.Proof.Gen.ReferenceIdeal.Read
import proofs.«122277_j8280696947363_1_alg».proof.Proof.KernelFrame
import proofs.«122277_j8280696947363_1_alg».proof.Proof.KernelIdealFrame
import proofs.«122277_j8280696947363_1_alg».proof.Proof.KernelValue
import proofs.«122277_j8280696947363_1_alg».proof.Proof.RefValue
import Idealize.ShloMosaic.Adequacy
import Idealize.ShloMosaic.Init

noncomputable section

namespace Cert.Proof

open Idealize.ShloMosaic Idealize.ShloMosaic.TcCoe Idealize.SL.Sem

/-- The printed kernel program runs to the end and leaves its arguments unchanged. -/
theorem frame_k : Cert.frame_Kernel := fun m ρ _ => Cert.Kernel.Frame.frame m ρ

/-- So does its idealization. -/
theorem frame_ki : Cert.frame_KernelIdeal := fun m ρ _ => Cert.KernelIdeal.Frame.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the specification's array: the kernel's
    launch block by block, the reference operation by operation, the aggregates one host term on both sides. -/
theorem algebraic : Cert.algebraic_KernelIdeal_ReferenceIdeal := by
  intro m ρ m' ρ' _ hagree
  refine ⟨fun c => Cert.KernelIdeal.KValue.GK m c, Cert.KernelIdeal.KValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v107_eq, Cert.ReferenceIdeal.RefValue.ref_eq]
  obtain ⟨h0, h1, h2, h3, h4, h5, h6, h7, h8⟩ := hagree c
  rw [h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
